-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_10368" .f32 0x38CA4588#32 ((1 / 10368 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x18x24x24 : Shape := ⟨5, ![1, 256, 18, 24, 24]⟩
abbrev S128x256 : Shape := ⟨2, ![128, 256]⟩
abbrev S128 : Shape := ⟨1, ![128]⟩
abbrev S_ : Shape := ⟨0, ![]⟩

class Facts : Prop where
  bcast_S_S1x256x18x24x24 : S_.BroadcastsInDim S1x256x18x24x24 (![] : Fin 0 → Fin S1x256x18x24x24.rank)
  reducesTo_S1x256x18x24x24_S_d0_1_2_3_4 : S1x256x18x24x24.ReducesTo [0, 1, 2, 3, 4] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1x256x18x24x24 .f32) (main_arg1 : FVec F S128x256 .f32) (main_arg2 : FVec F S128 .f32) (main_arg3 : FVec F S128x256 .f32) (main_arg4 : FVec F S128 .f32) : IVec S_ 1 :=
  let main_v0 : FVec F S1x256x18x24x24 .f32 := Host.absf main_arg0
  let main_cst : FVec F S_ .f32 := constant S_ .f32 0x7F800000#32
  let main_v1 : FVec F S1x256x18x24x24 .f32 := broadcastInDim S1x256x18x24x24 ![] bcast_S_S1x256x18x24x24 main_cst
  let main_v2 : IVec S1x256x18x24x24 1 := cmpf .olt main_v0 main_v1
  let main_c : IVec S_ 1 := constantI S_ 1 1#1
  let main_v3 : IVec S_ 1 := (fun x v => Host.reduce IntOp.andi x v reducesTo_S1x256x18x24x24_S_d0_1_2_3_4 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S1x256x18x24x24 : Shape := ⟨5, ![1, 256, 18, 24, 24]⟩
abbrev S128x256 : Shape := ⟨2, ![128, 256]⟩
abbrev S128 : Shape := ⟨1, ![128]⟩
abbrev S256x10368 : Shape := ⟨2, ![256, 10368]⟩
abbrev S128x1 : Shape := ⟨2, ![128, 1]⟩
abbrev S256x3456 : Shape := ⟨2, ![256, 3456]⟩
abbrev S128x3456 : Shape := ⟨2, ![128, 3456]⟩

abbrev nBuf : Space → Nat
  | .hbm => 11
  | .vmem => 13
  | .smem => 0
  | _ => 0

abbrev bufTy : (tb : Table) → Fin (tcTables nBuf tb) → BufTy
  | .hbm, ⟨0, _⟩ => ⟨S1x256x18x24x24, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S256x10368, .f32⟩
  | .hbm, ⟨6, _⟩ => ⟨S128x1, .f32⟩
  | .hbm, ⟨7, _⟩ => ⟨S128x1, .f32⟩
  | .hbm, ⟨8, _⟩ => ⟨S128x256, .f32⟩
  | .hbm, ⟨9, _⟩ => ⟨S256x10368, .f32⟩
  | .hbm, ⟨10, _⟩ => ⟨S1x256x18x24x24, .f32⟩
  | .local _ .vmem, ⟨0, _⟩ => ⟨S256x3456, .f32⟩
  | .local _ .vmem, ⟨1, _⟩ => ⟨S256x3456, .f32⟩
  | .local _ .vmem, ⟨2, _⟩ => ⟨S128x256, .f32⟩
  | .local _ .vmem, ⟨3, _⟩ => ⟨S128x1, .f32⟩
  | .local _ .vmem, ⟨4, _⟩ => ⟨S128x256, .f32⟩
  | .local _ .vmem, ⟨5, _⟩ => ⟨S128x256, .f32⟩
  | .local _ .vmem, ⟨6, _⟩ => ⟨S256x3456, .f32⟩
  | .local _ .vmem, ⟨7, _⟩ => ⟨S256x3456, .f32⟩
  | .local _ .vmem, ⟨8, _⟩ => ⟨S128x256, .f32⟩
  | .local _ .vmem, ⟨9, _⟩ => ⟨S128x1, .f32⟩
  | .local _ .vmem, ⟨10, _⟩ => ⟨S128x256, .f32⟩
  | .local _ .vmem, ⟨11, _⟩ => ⟨S256x3456, .f32⟩
  | .local _ .vmem, ⟨12, _⟩ => ⟨S256x3456, .f32⟩
  | _, _ => ⟨S1x256x18x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![3], ![false]⟩

def k0_cond2 (i : grid0.Coords) : BitVec 1 :=
  let arg0 : BitVec 32 := BitVec.ofNat 32 (i 0).val
  let c2_i32 : BitVec 32 := 2#32
  let v20 : BitVec 1 := Scalar.cmpi .eq arg0 c2_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x3456 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x3456 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x256x18x24x24_S256x10368 : S1x256x18x24x24.ShapeCasts S256x10368
  shapeCasts_S128_S128x1 : S128.ShapeCasts S128x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x3456_S256x3456_0_0 : ∀ a, (![0, 0] : Fin 2 → Nat) a + S256x3456.size a ≤ S256x3456.size a
  h_S256x3456 : 0 < S256x3456.numel
  shapeCasts_S256x3456_S256x3456 : S256x3456.ShapeCasts S256x3456
  inb_S128x1_S128x1_0_0 : ∀ a, (![0, 0] : Fin 2 → Nat) a + S128x1.size a ≤ S128x1.size a
  h_S128x1 : 0 < S128x1.numel
  shapeCasts_S128x1_S128x1 : S128x1.ShapeCasts S128x1
  bitsLt_bf16_f32 : FTy.bits .bf16 < FTy.bits .f32
  broadcasts_S128x1_S128x3456 : S128x1.Broadcasts S128x3456
  shapeCasts_S256x10368_S1x256x18x24x24 : S256x10368.ShapeCasts S1x256x18x24x24
  dot_S128x256_S256x3456_S128x3456_1_0_0_1_n_n_wf : DotDims.WF S128x256 S256x3456 S128x3456 [1] [0] [0] [1] [] []
  dot_S128x3456_S256x3456_S128x256_1_1_0_0_n_n_wf : DotDims.WF S128x3456 S256x3456 S128x256 [1] [1] [0] [0] [] []
  dot_S128x256_S128x3456_S256x3456_0_0_1_1_n_n_wf : DotDims.WF S128x256 S128x3456 S256x3456 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3456.size a ≤ S256x10368.size a
  hwx0_0 : ∀ i : grid0.Coords, EltTy.bits .f32 = 32 ∨ (Rect.block (s := S256x10368) S256x3456.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3456.size a ≤ S256x10368.size a
  hwx1_0 : ∀ i : grid1.Coords, EltTy.bits .f32 = 32 ∨ (Rect.block (s := S256x10368) S256x3456.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x3456.size a ≤ S256x10368.size a
  hwx1_4 : ∀ i : grid1.Coords, EltTy.bits .f32 = 32 ∨ (Rect.block (s := S256x10368) S256x3456.size (cc1_transform_4 i) (hinb1_4 i)).WholeWords (EltTy.packing .f32)

variable [Facts₀]

def dot_S128x256_S256x3456_S128x3456_1_0_0_1_n_n : DotDims S128x256 S256x3456 S128x3456 where
  lhsContracting := [1]
  rhsContracting := [0]
  lhsNonContracting := [0]
  rhsNonContracting := [1]
  lhsBatch := []
  rhsBatch := []
  wf := dot_S128x256_S256x3456_S128x3456_1_0_0_1_n_n_wf
def dot_S128x3456_S256x3456_S128x256_1_1_0_0_n_n : DotDims S128x3456 S256x3456 S128x256 where
  lhsContracting := [1]
  rhsContracting := [1]
  lhsNonContracting := [0]
  rhsNonContracting := [0]
  lhsBatch := []
  rhsBatch := []
  wf := dot_S128x3456_S256x3456_S128x256_1_1_0_0_n_n_wf
def dot_S128x256_S128x3456_S256x3456_0_0_1_1_n_n : DotDims S128x256 S128x3456 S256x3456 where
  lhsContracting := [0]
  rhsContracting := [0]
  lhsNonContracting := [1]
  rhsNonContracting := [1]
  lhsBatch := []
  rhsBatch := []
  wf := dot_S128x256_S128x3456_S256x3456_0_0_1_1_n_n_wf

abbrev win0_0 : Pipeline.Window sig grid0 :=
  Pipeline.Window.ofSpec (Memref.whole main_v0) S256x3456.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S256x3456.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x3456.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x256x18x24x24 : Shape := ⟨5, ![1, 256, 18, 24, 24]⟩
abbrev S128x256 : Shape := ⟨2, ![128, 256]⟩
abbrev S128 : Shape := ⟨1, ![128]⟩
abbrev S256x10368 : Shape := ⟨2, ![256, 10368]⟩
abbrev S128x10368 : Shape := ⟨2, ![128, 10368]⟩
abbrev S128x1 : Shape := ⟨2, ![128, 1]⟩
abbrev S10368x128 : Shape := ⟨2, ![10368, 128]⟩
abbrev S10368x256 : Shape := ⟨2, ![10368, 256]⟩
abbrev S10368x10368 : Shape := ⟨2, ![10368, 10368]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S1x256x18x24x24, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S256x10368, .f32⟩
  | .hbm, ⟨6, _⟩ => ⟨S128x10368, .f32⟩
  | .hbm, ⟨7, _⟩ => ⟨S128x1, .f32⟩
  | .hbm, ⟨8, _⟩ => ⟨S128x10368, .f32⟩
  | .hbm, ⟨9, _⟩ => ⟨S128x10368, .f32⟩
  | .hbm, ⟨10, _⟩ => ⟨S10368x128, .f32⟩
  | .hbm, ⟨11, _⟩ => ⟨S128x10368, .f32⟩
  | .hbm, ⟨12, _⟩ => ⟨S128x1, .f32⟩
  | .hbm, ⟨13, _⟩ => ⟨S128x10368, .f32⟩
  | .hbm, ⟨14, _⟩ => ⟨S128x10368, .f32⟩
  | .hbm, ⟨15, _⟩ => ⟨S10368x256, .f32⟩
  | .hbm, ⟨16, _⟩ => ⟨S10368x10368, .f32⟩
  | .hbm, ⟨17, _⟩ => ⟨S_, .f32⟩
  | .hbm, ⟨18, _⟩ => ⟨S10368x10368, .f32⟩
  | .hbm, ⟨19, _⟩ => ⟨S10368x10368, .f32⟩
  | .hbm, ⟨20, _⟩ => ⟨S10368x256, .f32⟩
  | .hbm, ⟨21, _⟩ => ⟨S256x10368, .f32⟩
  | .hbm, ⟨22, _⟩ => ⟨S1x256x18x24x24, .f32⟩
  | .hbm, ⟨23, _⟩ => ⟨S1x256x18x24x24, .f32⟩
  | _, _ => ⟨S1x256x18x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S1x256x18x24x24_S256x10368 : S1x256x18x24x24.ShapeCasts S256x10368
  bcast_S128_S128x1_0 : S128.BroadcastsInDim S128x1 (![0] : Fin 1 → Fin S128x1.rank)
  bcast_S128x1_S128x10368_0_1 : S128x1.BroadcastsInDim S128x10368 (![0, 1] : Fin 2 → Fin S128x10368.rank)
  transposes_S128x10368_S10368x128_1_0 : S128x10368.Transposes [1, 0] S10368x128
  transposes_S256x10368_S10368x256_1_0 : S256x10368.Transposes [1, 0] S10368x256
  bcast_S_S10368x10368 : S_.BroadcastsInDim S10368x10368 (![] : Fin 0 → Fin S10368x10368.rank)
  transposes_S10368x256_S256x10368_1_0 : S10368x256.Transposes [1, 0] S256x10368
  shapeCasts_S256x10368_S1x256x18x24x24 : S256x10368.ShapeCasts S1x256x18x24x24
  dot_S128x256_S256x10368_S128x10368_1_0_0_1_n_n_wf : DotDims.WF S128x256 S256x10368 S128x10368 [1] [0] [0] [1] [] []
  dot_S10368x128_S128x10368_S10368x10368_1_0_0_1_n_n_wf : DotDims.WF S10368x128 S128x10368 S10368x10368 [1] [0] [0] [1] [] []
  dot_S10368x10368_S10368x256_S10368x256_1_0_0_1_n_n_wf : DotDims.WF S10368x10368 S10368x256 S10368x256 [1] [0] [0] [1] [] []

variable [Facts₀]

def dot_S128x256_S256x10368_S128x10368_1_0_0_1_n_n : DotDims S128x256 S256x10368 S128x10368 where
  lhsContracting := [1]
  rhsContracting := [0]
  lhsNonContracting := [0]
  rhsNonContracting := [1]
  lhsBatch := []
  rhsBatch := []
  wf := dot_S128x256_S256x10368_S128x10368_1_0_0_1_n_n_wf
def dot_S10368x128_S128x10368_S10368x10368_1_0_0_1_n_n : DotDims S10368x128 S128x10368 S10368x10368 where
  lhsContracting := [1]
  rhsContracting := [0]
  lhsNonContracting := [0]
  rhsNonContracting := [1]
  lhsBatch := []
  rhsBatch := []
  wf := dot_S10368x128_S128x10368_S10368x10368_1_0_0_1_n_n_wf
def dot_S10368x10368_S10368x256_S10368x256_1_0_0_1_n_n : DotDims S10368x10368 S10368x256 S10368x256 where
  lhsContracting := [1]
  rhsContracting := [0]
  lhsNonContracting := [0]
  rhsNonContracting := [1]
  lhsBatch := []
  rhsBatch := []
  wf := dot_S10368x10368_S10368x256_S10368x256_1_0_0_1_n_n_wf

class Facts : Prop extends Facts₀ where

variable [Facts]
-- ==== Proof.K.Runs0.lean ====
/-
  The first region (the accumulation of the small matrix) keeps a scratch accumulator across its three grid points:
  the first point clears it, every point adds its block's contribution, and the last point copies it to the result
  window.  Here: the two branch conditions decided over the grid, where the result window is idle, the names of the
  memrefs the body is called with, and the region's plain invariant with the accumulator's buffer split out.
-/
import proofs.«144963_j57260503990845_1_alg».proof.Proof.Gen.Kernel.Launch
import proofs.«144963_j57260503990845_1_alg».proof.Proof.Gen.Kernel.Skeleton
import proofs.«144963_j57260503990845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The first branch (clear the accumulator): taken when the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- The second branch (copy the accumulator out): taken when the grid coordinate is 2, the last. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The result window is idle, and not written back, wherever the second branch is not taken; live where it is. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The result window's one staging buffer, as a view. -/
abbrev VO0_3 : View sig .tc .vmem S128x256 .f32 := (Memref.whole cc0_stg3_0 : Memref sig .tc .vmem S128x256 .f32).view
/-- Each window's current staging memref at point `t`, as the pipeline passes it, and its wholeness. -/
abbrev ms0_0 (t : Fin cfg0.N) : Memref sig .tc .vmem S256x3456 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S128x256 .f32 := Memref.whole cc0_scratch0
abbrev VS0 : View sig .tc .vmem S128x256 .f32 := scM0.view

/-- The scoped buffers that are neither this region's staging buffers nor its accumulator (the other region's
    staging buffers), each whole at some contents: they ride along untouched. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The plain invariant with the accumulator as a memref owned at some contents. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]; try rfl

end Cert.Kernel.Fr

end
-- ==== Proof.K.Run0A.lean ====
/-
  The first region's body at the first point (the accumulator cleared, then added to; nothing copied out): run symbolically on whole memrefs, the stores it leaves in the
  accumulator found as a list of pieces; the idle result window is handed back as it was found.
-/
import proofs.«144963_j57260503990845_1_alg».proof.Proof.K.Runs0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body leaves in the accumulator, with the proof that from the inputs at `x0 x1 x2`, the result
    window at any contents `xi3` (handed back untouched) and the accumulator at anything, the body runs to the
    continuation holding the inputs as they were and the accumulator with those pieces written. -/
noncomputable def kernelRun0_A (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : cond0_0 i) (hc1 : ¬cond0_1 i)
    (x0 : Vec F S256x3456 .f32) (x1 : Vec F S128x256 .f32) (x2 : Vec F S128x1 .f32) :
    { LS0 : List (View.Piece (Elt F) S128x256 .f32) //
      ∀ (xi3 : Vec F S128x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__m_kernel i arg1 harg1 arg2 harg2 arg3 harg3 arg4 harg4 arg5 harg5) K } := by
  refine ⟨?_, fun xi3 E K => ?run⟩
  case run =>
    simp only [cc0__m_kernel_eq_skeleton]; unfold cc0__m_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.K.Run0B.lean ====
/-
  The first region's body at a middle point (the accumulator added to; nothing copied out): run symbolically on whole memrefs, the stores it leaves in the
  accumulator found as a list of pieces; the idle result window is handed back as it was found.
-/
import proofs.«144963_j57260503990845_1_alg».proof.Proof.K.Runs0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body leaves in the accumulator, with the proof that from the inputs at `x0 x1 x2`, the result
    window at any contents `xi3` (handed back untouched) and the accumulator at `xs0`, the body runs to the
    continuation holding the inputs as they were and the accumulator with those pieces written. -/
noncomputable def kernelRun0_B (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : ¬cond0_1 i)
    (x0 : Vec F S256x3456 .f32) (x1 : Vec F S128x256 .f32) (x2 : Vec F S128x1 .f32) (xs0 : Vec F S128x256 .f32) :
    { LS0 : List (View.Piece (Elt F) S128x256 .f32) //
      ∀ (xi3 : Vec F S128x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__m_kernel i arg1 harg1 arg2 harg2 arg3 harg3 arg4 harg4 arg5 harg5) K } := by
  refine ⟨?_, fun xi3 E K => ?run⟩
  case run =>
    simp only [cc0__m_kernel_eq_skeleton]; unfold cc0__m_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.K.Run0C.lean ====
/-
  The first region's body at the last point (the accumulator added to, then copied to the result window): run symbolically on whole memrefs, the stores it leaves in the
  accumulator and in the result window found as lists of pieces.
-/
import proofs.«144963_j57260503990845_1_alg».proof.Proof.K.Runs0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body leaves in the result window and in the accumulator, with the proof that from the inputs at
    `x0 x1 x2`, the result window at anything and the accumulator at `xs0`, the body runs to the continuation holding the
    inputs as they were and the two buffers with those pieces written. -/
noncomputable def kernelRun0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) :
    Σ' (L3 : List (View.Piece (Elt F) S128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__m_kernel i arg1 harg1 arg2 harg2 arg3 harg3 arg4 harg4 arg5 harg5) K } := by
  refine ⟨?_, ?_, fun E K => ?run⟩
  case run =>
    simp only [cc0__m_kernel_eq_skeleton]; unfold cc0__m_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Fr

end
-- ==== Proof.K.Body0.lean ====
/-
  The first region (the accumulation of the small matrix), point by point.  After point n the accumulator holds what
  that point's stores left in it: at the first point the cleared buffer plus the first block's contribution, at a later
  point what the point before left plus this block's contribution; the result window's buffer is stored only at the
  last point, with the accumulator's final contents.  The region's invariant carries the accumulator at exactly these
  contents from one point to the next; before the first point, and after the last, it is the plain invariant.
-/
import proofs.«144963_j57260503990845_1_alg».proof.Proof.K.Run0A
import proofs.«144963_j57260503990845_1_alg».proof.Proof.K.Run0B
import proofs.«144963_j57260503990845_1_alg».proof.Proof.K.Run0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region0
-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves in the accumulator and in the result window -/

/-- The first point's pieces cover the accumulator. -/
theorem scover0_A (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : cond0_0 i) (hc1 : ¬cond0_1 i)
    (x0 : Vec F S256x3456 .f32) (x1 : Vec F S128x256 .f32) (x2 : Vec F S128x1 .f32) (y : S128x256.Idx) :
    ∃ pc ∈ (kernelRun0_A c i arg1 harg1 arg2 harg2 arg3 harg3 arg4 harg4 arg5 harg5 hc0 hc1 x0 x1 x2).1, y ∈ pc.1.set :=
  View.cover_of_tiledL (kernelRun0_A c i arg1 harg1 arg2 harg2 arg3 harg3 arg4 harg4 arg5 harg5 hc0 hc1 x0 x1 x2).1 S128x256.size (by sl_kernel_rfl) y

/-- What the first point leaves in the accumulator: its pieces read back. -/
def sout0_A (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : cond0_0 i) (hc1 : ¬cond0_1 i)
    (x0 : Vec F S256x3456 .f32) (x1 : Vec F S128x256 .f32) (x2 : Vec F S128x1 .f32) : Vec F S128x256 .f32 :=
  VS0.read (Elt F) (VS0.writes (Elt F) VS0.junk (kernelRun0_A c i arg1 harg1 arg2 harg2 arg3 harg3 arg4 harg4 arg5 harg5 hc0 hc1 x0 x1 x2).1)

theorem scover0_B (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : ¬cond0_1 i)
    (x0 : Vec F S256x3456 .f32) (x1 : Vec F S128x256 .f32) (x2 : Vec F S128x1 .f32) (xs0 : Vec F S128x256 .f32) (y : S128x256.Idx) :
    ∃ pc ∈ (kernelRun0_B c i arg1 harg1 arg2 harg2 arg3 harg3 arg4 harg4 arg5 harg5 hc0 hc1 x0 x1 x2 xs0).1, y ∈ pc.1.set :=
  View.cover_of_tiledL (kernelRun0_B c i arg1 harg1 arg2 harg2 arg3 harg3 arg4 harg4 arg5 harg5 hc0 hc1 x0 x1 x2 xs0).1 S128x256.size (by sl_kernel_rfl) y

/-- What a middle point leaves in the accumulator, from what the point before left (`xs0`). -/
def sout0_B (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : ¬cond0_1 i)
    (x0 : Vec F S256x3456 .f32) (x1 : Vec F S128x256 .f32) (x2 : Vec F S128x1 .f32) (xs0 : Vec F S128x256 .f32) : Vec F S128x256 .f32 :=
  VS0.read (Elt F) (VS0.writes (Elt F) VS0.junk (kernelRun0_B c i arg1 harg1 arg2 harg2 arg3 harg3 arg4 harg4 arg5 harg5 hc0 hc1 x0 x1 x2 xs0).1)

theorem cover0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) (y : S128x256.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S128x256.size (by sl_kernel_rfl) y

/-- What the last point leaves in the result window's staging buffer. -/
def out0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) : Vec F S128x256 .f32 :=
  VO0_3.read (Elt F) (VO0_3.writes (Elt F) VO0_3.junk (kernelRun0_C c i arg1 harg1 arg2 harg2 arg3 harg3 arg4 harg4 arg5 harg5 hc0 hc1 x0 x1 x2 xs0).1)

theorem scover0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) (y : S128x256.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S128x256.size (by sl_kernel_rfl) y

/-- What the last point leaves in the accumulator. -/
def sout0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) : Vec F S128x256 .f32 :=
  VS0.read (Elt F) (VS0.writes (Elt F) VS0.junk (kernelRun0_C c i arg1 harg1 arg2 harg2 arg3 harg3 arg4 harg4 arg5 harg5 hc0 hc1 x0 x1 x2 xs0).2.1)

section Region0
variable (V : (c : Dev nD) → (b : Ref sig .tc) → Buf (Elt F) ((c : Thread nD τ).loc b))

/-- A placeholder for the result window's buffer at the points that store nothing into it: nothing consults it,
    since there the window is neither written back nor read at the next point. -/
def idle3 : Vec F S128x256 .f32 := VO0_3.read (Elt F) VO0_3.junk

/-! ## The accumulation, point by point -/

/-- What the result window's staging buffer and the accumulator hold after the body at position `n`: the case the
    position is in, run at the point's memrefs and input blocks, over what the point before left in the accumulator. -/
def outsAt0 (c : Dev nD) : (n : ℕ) → n < cfg0.N → Vec F S128x256 .f32 × Vec F S128x256 .f32
  | 0, hn => (idle3, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    have h0 : ¬(n + 1) % 3 = 0 := by have hN : n + 1 < 3 := lt_of_lt_of_eq hn (show cfg0.N = 3 from N_0); omega
    if h1 : (n + 1) % 3 = 2 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
    else
      (idle3, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At the first point. -/
theorem outsAt0_A (c : Dev nD) (t : Fin cfg0.N) (h0 : t.val % 3 = 0) (h1 : ¬t.val % 3 = 2) :
    outsAt0 V c t.val t.isLt = (idle3, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (by exfalso; have hN : n + 1 < 3 := lt_of_lt_of_eq hn (show cfg0.N = 3 from N_0); (try dsimp only at h0); omega)

/-- At a middle point: over what the point before left. -/
theorem outsAt0_B (c : Dev nD) (t : Fin cfg0.N) (h0 : ¬t.val % 3 = 0) (h1 : ¬t.val % 3 = 2) :
    outsAt0 V c t.val t.isLt = (idle3, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt0_C (c : Dev nD) (t : Fin cfg0.N) (h0 : ¬t.val % 3 = 0) (h1 : t.val % 3 = 2) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point the plain one; afterwards the accumulator at
    what the point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ restS0 c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 3 := lt_of_lt_of_eq t.isLt (show cfg0.N = 3 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 3 = 2
  · have h0 : ¬t.val % 3 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [outsAt0_C V c t h0 h1]
    unfold out0_C sout0_C; (try dsimp only)
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C c _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 3 = 0
    · have hz : t.val = 0 := by omega
      rw [outsAt0_A V c t h0 h1]
      unfold sout0_A; (try dsimp only)
      rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · have hz : t.val ≠ 0 := by omega
      rw [outsAt0_B V c t h0 h1]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 3 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end Region0

end Cert.Kernel.Fr

end
-- ==== Proof.K.Body1.lean ====
/-
  The second region (the application of the small matrix): at every grid point the body reads its four input
  blocks whole — a block of 3456 token columns, the weights, the bias column and the small matrix — and stores one
  block of the result, a pure function of those four.  Nothing is carried between points, so the region's invariant
  is the plain one: whatever scoped memory the body does not name, and the generator register, pass through untouched.
-/
import proofs.«144963_j57260503990845_1_alg».proof.Proof.Gen.Kernel.Launch
import proofs.«144963_j57260503990845_1_alg».proof.Proof.Gen.Kernel.Skeleton
import proofs.«144963_j57260503990845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region1
-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body reads and writes through. -/
abbrev rTok : Rect S256x3456 := Rect.unit (s := S256x3456) ![0, 0] S256x3456.size inb_S256x3456_S256x3456_0_0
abbrev rMat : Rect S128x256 := Rect.unit (s := S128x256) ![0, 0] S128x256.size inb_S128x256_S128x256_0_0
abbrev rCol : Rect S128x1 := Rect.unit (s := S128x1) ![0, 0] S128x1.size inb_S128x1_S128x1_0_0

/-- The result window's staging buffer after the body, from the four input blocks: its one store, over the whole block. -/
def out1_4 (x0 : Vec F S256x3456 .f32) (x1 : Vec F S128x256 .f32) (x2 : Vec F S128x1 .f32) (x3 : Vec F S128x256 .f32) : Vec F S256x3456 .f32 :=
  View.canon [⟨rTok, k1_pay1 (View.ld x0 rTok) (View.ld x1 rMat) (View.ld x2 rCol) (View.ld x3 rMat)⟩]

/-- The one store covers the block. -/
theorem cover1_4 (p0 : Vec F S256x3456 .f32) (y : S256x3456.Idx) :
    ∃ pc ∈ ([⟨rTok, p0⟩] : List (View.Piece (Elt F) S256x3456 .f32)), y ∈ pc.1.set :=
  View.cover_of_tiled [⟨rTok, p0⟩] S256x3456.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg1 : Memref sig .tc .vmem S256x3456 .f32) (harg1 : arg1.IsWhole) (arg2 : Memref sig .tc .vmem S128x256 .f32) (harg2 : arg2.IsWhole)
    (arg3 : Memref sig .tc .vmem S128x1 .f32) (harg3 : arg3.IsWhole) (arg4 : Memref sig .tc .vmem S128x256 .f32) (harg4 : arg4.IsWhole)
    (arg5 : Memref sig .tc .vmem S256x3456 .f32) (harg5 : arg5.IsWhole)
    (x0 : Vec F S256x3456 .f32) (x1 : Vec F S128x256 .f32) (x2 : Vec F S128x1 .f32) (x3 : Vec F S128x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_apply_kernel i arg1 harg1 arg2 harg2 arg3 harg3 arg4 harg4 arg5 harg5) K := by
  simp only [cc1_apply_kernel_eq_skeleton]; unfold cc1_apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each
    input's buffer at its block and the output's at `out1_4` of the input blocks; the plain invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The region's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.K.Main.lean ====
/-
  The whole program as a run: the three reshapes on the host, the accumulating region, the applying region, the last
  reshape.  Between two items every unscoped buffer of the core is held at named contents — the launch contents folded
  through the host operations, a region's arrays at what its write-backs leave — beside the generator register and
  the core owing nothing.  The run ends with every unscoped buffer at the last of these contents; the argument
  arrays are read back through the fold to their launch contents (no item writes one).
-/
import proofs.«144963_j57260503990845_1_alg».proof.Proof.K.Body0
import proofs.«144963_j57260503990845_1_alg».proof.Proof.K.Body1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the three reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the
    contents after it; its arrays split out of the unscoped buffers and put back at what the pipeline leaves; the
    generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at what the pipeline leaves; the
    generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Fr

end
-- ==== Proof.KI.Runs0.lean ====
/-
  The first region (the accumulation of the small matrix) keeps a scratch accumulator across its three grid points:
  the first point clears it, every point adds its block's contribution, and the last point copies it to the result
  window.  Here: the two branch conditions decided over the grid, where the result window is idle, the names of the
  memrefs the body is called with, and the region's plain invariant with the accumulator's buffer split out.
-/
import proofs.«144963_j57260503990845_1_alg».proof.Proof.Gen.KernelIdeal.Launch
import proofs.«144963_j57260503990845_1_alg».proof.Proof.Gen.KernelIdeal.Skeleton
import proofs.«144963_j57260503990845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-- The first branch (clear the accumulator): taken when the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- The second branch (copy the accumulator out): taken when the grid coordinate is 2, the last. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The result window is idle, and not written back, wherever the second branch is not taken; live where it is. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The result window's one staging buffer, as a view. -/
abbrev VO0_3 : View sig .tc .vmem S128x256 .f32 := (Memref.whole cc0_stg3_0 : Memref sig .tc .vmem S128x256 .f32).view
/-- Each window's current staging memref at point `t`, as the pipeline passes it, and its wholeness. -/
abbrev ms0_0 (t : Fin cfg0.N) : Memref sig .tc .vmem S256x3456 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S128x256 .f32 := Memref.whole cc0_scratch0
abbrev VS0 : View sig .tc .vmem S128x256 .f32 := scM0.view

/-- The scoped buffers that are neither this region's staging buffers nor its accumulator (the other region's
    staging buffers), each whole at some contents: they ride along untouched. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The plain invariant with the accumulator as a memref owned at some contents. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]; try rfl

end Cert.KernelIdeal.Fr

end
-- ==== Proof.KI.Run0A.lean ====
/-
  The first region's body at the first point (the accumulator cleared, then added to; nothing copied out): run symbolically on whole memrefs, the stores it leaves in the
  accumulator found as a list of pieces; the idle result window is handed back as it was found.
-/
import proofs.«144963_j57260503990845_1_alg».proof.Proof.KI.Runs0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 1000000 in
/-- The pieces the body leaves in the accumulator, with the proof that from the inputs at `x0 x1 x2`, the result
    window at any contents `xi3` (handed back untouched) and the accumulator at anything, the body runs to the
    continuation holding the inputs as they were and the accumulator with those pieces written. -/
noncomputable def kernelRun0_A (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : cond0_0 i) (hc1 : ¬cond0_1 i)
    (x0 : Vec F S256x3456 .f32) (x1 : Vec F S128x256 .f32) (x2 : Vec F S128x1 .f32) :
    { LS0 : List (View.Piece (Elt F) S128x256 .f32) //
      ∀ (xi3 : Vec F S128x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__m_kernel i arg1 harg1 arg2 harg2 arg3 harg3 arg4 harg4 arg5 harg5) K } := by
  refine ⟨?_, fun xi3 E K => ?run⟩
  case run =>
    simp only [cc0__m_kernel_eq_skeleton]; unfold cc0__m_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.KI.Run0B.lean ====
/-
  The first region's body at a middle point (the accumulator added to; nothing copied out): run symbolically on whole memrefs, the stores it leaves in the
  accumulator found as a list of pieces; the idle result window is handed back as it was found.
-/
import proofs.«144963_j57260503990845_1_alg».proof.Proof.KI.Runs0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 1000000 in
/-- The pieces the body leaves in the accumulator, with the proof that from the inputs at `x0 x1 x2`, the result
    window at any contents `xi3` (handed back untouched) and the accumulator at `xs0`, the body runs to the
    continuation holding the inputs as they were and the accumulator with those pieces written. -/
noncomputable def kernelRun0_B (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : ¬cond0_1 i)
    (x0 : Vec F S256x3456 .f32) (x1 : Vec F S128x256 .f32) (x2 : Vec F S128x1 .f32) (xs0 : Vec F S128x256 .f32) :
    { LS0 : List (View.Piece (Elt F) S128x256 .f32) //
      ∀ (xi3 : Vec F S128x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__m_kernel i arg1 harg1 arg2 harg2 arg3 harg3 arg4 harg4 arg5 harg5) K } := by
  refine ⟨?_, fun xi3 E K => ?run⟩
  case run =>
    simp only [cc0__m_kernel_eq_skeleton]; unfold cc0__m_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.KI.Run0C.lean ====
/-
  The first region's body at the last point (the accumulator added to, then copied to the result window): run symbolically on whole memrefs, the stores it leaves in the
  accumulator and in the result window found as lists of pieces.
-/
import proofs.«144963_j57260503990845_1_alg».proof.Proof.KI.Runs0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 1000000 in
/-- The pieces the body leaves in the result window and in the accumulator, with the proof that from the inputs at
    `x0 x1 x2`, the result window at anything and the accumulator at `xs0`, the body runs to the continuation holding the
    inputs as they were and the two buffers with those pieces written. -/
noncomputable def kernelRun0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) :
    Σ' (L3 : List (View.Piece (Elt F) S128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__m_kernel i arg1 harg1 arg2 harg2 arg3 harg3 arg4 harg4 arg5 harg5) K } := by
  refine ⟨?_, ?_, fun E K => ?run⟩
  case run =>
    simp only [cc0__m_kernel_eq_skeleton]; unfold cc0__m_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Fr

end
-- ==== Proof.KI.Body0.lean ====
/-
  The first region (the accumulation of the small matrix), point by point.  After point n the accumulator holds what
  that point's stores left in it: at the first point the cleared buffer plus the first block's contribution, at a later
  point what the point before left plus this block's contribution; the result window's buffer is stored only at the
  last point, with the accumulator's final contents.  The region's invariant carries the accumulator at exactly these
  contents from one point to the next; before the first point, and after the last, it is the plain invariant.
-/
import proofs.«144963_j57260503990845_1_alg».proof.Proof.KI.Run0A
import proofs.«144963_j57260503990845_1_alg».proof.Proof.KI.Run0B
import proofs.«144963_j57260503990845_1_alg».proof.Proof.KI.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

section Region0
-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves in the accumulator and in the result window -/

/-- The first point's pieces cover the accumulator. -/
theorem scover0_A (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : cond0_0 i) (hc1 : ¬cond0_1 i)
    (x0 : Vec F S256x3456 .f32) (x1 : Vec F S128x256 .f32) (x2 : Vec F S128x1 .f32) (y : S128x256.Idx) :
    ∃ pc ∈ (kernelRun0_A c i arg1 harg1 arg2 harg2 arg3 harg3 arg4 harg4 arg5 harg5 hc0 hc1 x0 x1 x2).1, y ∈ pc.1.set :=
  View.cover_of_tiledL (kernelRun0_A c i arg1 harg1 arg2 harg2 arg3 harg3 arg4 harg4 arg5 harg5 hc0 hc1 x0 x1 x2).1 S128x256.size (by sl_kernel_rfl) y

/-- What the first point leaves in the accumulator: its pieces read back. -/
def sout0_A (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : cond0_0 i) (hc1 : ¬cond0_1 i)
    (x0 : Vec F S256x3456 .f32) (x1 : Vec F S128x256 .f32) (x2 : Vec F S128x1 .f32) : Vec F S128x256 .f32 :=
  VS0.read (Elt F) (VS0.writes (Elt F) VS0.junk (kernelRun0_A c i arg1 harg1 arg2 harg2 arg3 harg3 arg4 harg4 arg5 harg5 hc0 hc1 x0 x1 x2).1)

theorem scover0_B (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : ¬cond0_1 i)
    (x0 : Vec F S256x3456 .f32) (x1 : Vec F S128x256 .f32) (x2 : Vec F S128x1 .f32) (xs0 : Vec F S128x256 .f32) (y : S128x256.Idx) :
    ∃ pc ∈ (kernelRun0_B c i arg1 harg1 arg2 harg2 arg3 harg3 arg4 harg4 arg5 harg5 hc0 hc1 x0 x1 x2 xs0).1, y ∈ pc.1.set :=
  View.cover_of_tiledL (kernelRun0_B c i arg1 harg1 arg2 harg2 arg3 harg3 arg4 harg4 arg5 harg5 hc0 hc1 x0 x1 x2 xs0).1 S128x256.size (by sl_kernel_rfl) y

/-- What a middle point leaves in the accumulator, from what the point before left (`xs0`). -/
def sout0_B (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : ¬cond0_1 i)
    (x0 : Vec F S256x3456 .f32) (x1 : Vec F S128x256 .f32) (x2 : Vec F S128x1 .f32) (xs0 : Vec F S128x256 .f32) : Vec F S128x256 .f32 :=
  VS0.read (Elt F) (VS0.writes (Elt F) VS0.junk (kernelRun0_B c i arg1 harg1 arg2 harg2 arg3 harg3 arg4 harg4 arg5 harg5 hc0 hc1 x0 x1 x2 xs0).1)

theorem cover0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) (y : S128x256.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S128x256.size (by sl_kernel_rfl) y

/-- What the last point leaves in the result window's staging buffer. -/
def out0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) : Vec F S128x256 .f32 :=
  VO0_3.read (Elt F) (VO0_3.writes (Elt F) VO0_3.junk (kernelRun0_C c i arg1 harg1 arg2 harg2 arg3 harg3 arg4 harg4 arg5 harg5 hc0 hc1 x0 x1 x2 xs0).1)

theorem scover0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) (y : S128x256.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S128x256.size (by sl_kernel_rfl) y

/-- What the last point leaves in the accumulator. -/
def sout0_C (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) : Vec F S128x256 .f32 :=
  VS0.read (Elt F) (VS0.writes (Elt F) VS0.junk (kernelRun0_C c i arg1 harg1 arg2 harg2 arg3 harg3 arg4 harg4 arg5 harg5 hc0 hc1 x0 x1 x2 xs0).2.1)

section Region0
variable (V : (c : Dev nD) → (b : Ref sig .tc) → Buf (Elt F) ((c : Thread nD τ).loc b))

/-- A placeholder for the result window's buffer at the points that store nothing into it: nothing consults it,
    since there the window is neither written back nor read at the next point. -/
def idle3 : Vec F S128x256 .f32 := VO0_3.read (Elt F) VO0_3.junk

/-! ## The accumulation, point by point -/

/-- What the result window's staging buffer and the accumulator hold after the body at position `n`: the case the
    position is in, run at the point's memrefs and input blocks, over what the point before left in the accumulator. -/
def outsAt0 (c : Dev nD) : (n : ℕ) → n < cfg0.N → Vec F S128x256 .f32 × Vec F S128x256 .f32
  | 0, hn => (idle3, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    have h0 : ¬(n + 1) % 3 = 0 := by have hN : n + 1 < 3 := lt_of_lt_of_eq hn (show cfg0.N = 3 from N_0); omega
    if h1 : (n + 1) % 3 = 2 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
    else
      (idle3, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At the first point. -/
theorem outsAt0_A (c : Dev nD) (t : Fin cfg0.N) (h0 : t.val % 3 = 0) (h1 : ¬t.val % 3 = 2) :
    outsAt0 V c t.val t.isLt = (idle3, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (by exfalso; have hN : n + 1 < 3 := lt_of_lt_of_eq hn (show cfg0.N = 3 from N_0); (try dsimp only at h0); omega)

/-- At a middle point: over what the point before left. -/
theorem outsAt0_B (c : Dev nD) (t : Fin cfg0.N) (h0 : ¬t.val % 3 = 0) (h1 : ¬t.val % 3 = 2) :
    outsAt0 V c t.val t.isLt = (idle3, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt0_C (c : Dev nD) (t : Fin cfg0.N) (h0 : ¬t.val % 3 = 0) (h1 : t.val % 3 = 2) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point the plain one; afterwards the accumulator at
    what the point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ restS0 c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 3 := lt_of_lt_of_eq t.isLt (show cfg0.N = 3 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 3 = 2
  · have h0 : ¬t.val % 3 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [outsAt0_C V c t h0 h1]
    unfold out0_C sout0_C; (try dsimp only)
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C c _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 3 = 0
    · have hz : t.val = 0 := by omega
      rw [outsAt0_A V c t h0 h1]
      unfold sout0_A; (try dsimp only)
      rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · have hz : t.val ≠ 0 := by omega
      rw [outsAt0_B V c t h0 h1]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 3 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end Region0

end Cert.KernelIdeal.Fr

end
-- ==== Proof.KI.Body1.lean ====
/-
  The second region (the application of the small matrix): at every grid point the body reads its four input
  blocks whole — a block of 3456 token columns, the weights, the bias column and the small matrix — and stores one
  block of the result, a pure function of those four.  Nothing is carried between points, so the region's invariant
  is the plain one: whatever scoped memory the body does not name, and the generator register, pass through untouched.
-/
import proofs.«144963_j57260503990845_1_alg».proof.Proof.Gen.KernelIdeal.Launch
import proofs.«144963_j57260503990845_1_alg».proof.Proof.Gen.KernelIdeal.Skeleton
import proofs.«144963_j57260503990845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

section Region1
-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body reads and writes through. -/
abbrev rTok : Rect S256x3456 := Rect.unit (s := S256x3456) ![0, 0] S256x3456.size inb_S256x3456_S256x3456_0_0
abbrev rMat : Rect S128x256 := Rect.unit (s := S128x256) ![0, 0] S128x256.size inb_S128x256_S128x256_0_0
abbrev rCol : Rect S128x1 := Rect.unit (s := S128x1) ![0, 0] S128x1.size inb_S128x1_S128x1_0_0

/-- The result window's staging buffer after the body, from the four input blocks: its one store, over the whole block. -/
def out1_4 (x0 : Vec F S256x3456 .f32) (x1 : Vec F S128x256 .f32) (x2 : Vec F S128x1 .f32) (x3 : Vec F S128x256 .f32) : Vec F S256x3456 .f32 :=
  View.canon [⟨rTok, k1_pay1 (View.ld x0 rTok) (View.ld x1 rMat) (View.ld x2 rCol) (View.ld x3 rMat)⟩]

/-- The one store covers the block. -/
theorem cover1_4 (p0 : Vec F S256x3456 .f32) (y : S256x3456.Idx) :
    ∃ pc ∈ ([⟨rTok, p0⟩] : List (View.Piece (Elt F) S256x3456 .f32)), y ∈ pc.1.set :=
  View.cover_of_tiled [⟨rTok, p0⟩] S256x3456.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords)
    (arg1 : Memref sig .tc .vmem S256x3456 .f32) (harg1 : arg1.IsWhole) (arg2 : Memref sig .tc .vmem S128x256 .f32) (harg2 : arg2.IsWhole)
    (arg3 : Memref sig .tc .vmem S128x1 .f32) (harg3 : arg3.IsWhole) (arg4 : Memref sig .tc .vmem S128x256 .f32) (harg4 : arg4.IsWhole)
    (arg5 : Memref sig .tc .vmem S256x3456 .f32) (harg5 : arg5.IsWhole)
    (x0 : Vec F S256x3456 .f32) (x1 : Vec F S128x256 .f32) (x2 : Vec F S128x1 .f32) (x3 : Vec F S128x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_apply_kernel i arg1 harg1 arg2 harg2 arg3 harg3 arg4 harg4 arg5 harg5) K := by
  simp only [cc1_apply_kernel_eq_skeleton]; unfold cc1_apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each
    input's buffer at its block and the output's at `out1_4` of the input blocks; the plain invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The region's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KI.Main.lean ====
/-
  The whole program as a run: the three reshapes on the host, the accumulating region, the applying region, the last
  reshape.  Between two items every unscoped buffer of the core is held at named contents — the launch contents folded
  through the host operations, a region's arrays at what its write-backs leave — beside the generator register and
  the core owing nothing.  The run ends with every unscoped buffer at the last of these contents; the argument
  arrays are read back through the fold to their launch contents (no item writes one).
-/
import proofs.«144963_j57260503990845_1_alg».proof.Proof.KI.Body0
import proofs.«144963_j57260503990845_1_alg».proof.Proof.KI.Body1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the three reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the
    contents after it; its arrays split out of the unscoped buffers and put back at what the pipeline leaves; the
    generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at what the pipeline leaves; the
    generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Fr

end
-- ==== Proof.Spec.lean ====
/-
  The mathematics of the non-local block, written once over coordinate functions on the extended reals.

  With X the 256 × 10368 matrix of tokens (channels by positions), a projection is (W·X + b)[p, n] = Σ_k W[p,k]·X[k,n] + b[p].
  One program first forms the small 128 × 256 matrix M[p,q] = Σ_n fj[p,n]·X[q,n] (fj the projection by Wj, bj) and then
  X[q,n] + (Σ_p M[p,q]·fi[p,n])·(1/10368); the other forms the 10368 × 10368 matrix of scores
  (Σ_p fi[p,n]·fj[p,n'])·(1/10368) and then X[q,n] + Σ_n' score[n,n']·X[q,n'].  Over the reals the two agree by
  exchanging the two finite sums and moving the constant factor through them.
-/
import Idealize.ShloMosaic.PureOps.Ideal
import Idealize.ShloMosaic.Lib.ValueIdx

noncomputable section

open scoped BigOperators

namespace Cert.NonLocal

/-- The projection of the tokens: (W·X + b)[p, n]. -/
def proj (W : Fin 128 → Fin 256 → EReal) (b : Fin 128 → EReal) (X : Fin 256 → Fin 10368 → EReal)
    (p : Fin 128) (n : Fin 10368) : EReal :=
  (∑ k : Fin 256, W p k * X k n) + b p

/-- The small matrix M[p, q] = Σ_n fj[p, n] · X[q, n], summed over all 10368 positions. -/
def gram (Wj : Fin 128 → Fin 256 → EReal) (bj : Fin 128 → EReal) (X : Fin 256 → Fin 10368 → EReal)
    (p : Fin 128) (q : Fin 256) : EReal :=
  ∑ n : Fin 10368, proj Wj bj X p n * X q n

/-- The result through the small matrix: X[q,n] + (Σ_p M[p,q] · fi[p,n]) · (1/10368). -/
def outSmall (Wi : Fin 128 → Fin 256 → EReal) (bi : Fin 128 → EReal) (Wj : Fin 128 → Fin 256 → EReal) (bj : Fin 128 → EReal)
    (X : Fin 256 → Fin 10368 → EReal) (q : Fin 256) (n : Fin 10368) : EReal :=
  X q n + (∑ p : Fin 128, gram Wj bj X p q * proj Wi bi X p n) * ((1 / 10368 : ℝ) : EReal)

/-- The result through the full score matrix: X[q,n] + Σ_n' ((Σ_p fi[p,n] · fj[p,n']) · (1/10368)) · X[q,n']. -/
def outScores (Wi : Fin 128 → Fin 256 → EReal) (bi : Fin 128 → EReal) (Wj : Fin 128 → Fin 256 → EReal) (bj : Fin 128 → EReal)
    (X : Fin 256 → Fin 10368 → EReal) (q : Fin 256) (n : Fin 10368) : EReal :=
  X q n + ∑ n' : Fin 10368, ((∑ p : Fin 128, proj Wi bi X p n * proj Wj bj X p n') * ((1 / 10368 : ℝ) : EReal)) * X q n'

/-! ## The argument arrays as coordinate functions -/

open Idealize.ShloMosaic Idealize.ShloMosaic.ValueIdx

/-- The feature volume's shape, one batch of 256 channels over an 18 × 24 × 24 grid of positions. -/
abbrev SVol : Shape := ⟨5, ![1, 256, 18, 24, 24]⟩

/-- Position `n` of the flattened 18 × 24 × 24 grid, as grid coordinates (row-major). -/
abbrev cell (k : Fin 256) (n : Fin 10368) : SVol.Idx :=
  ix5 (⟨0, Nat.one_pos⟩ : Fin 1) k (⟨n.val / 576, by have := n.isLt; omega⟩ : Fin 18)
    (⟨n.val / 24 % 24, by omega⟩ : Fin 24) (⟨n.val % 24, by omega⟩ : Fin 24)

/-- The tokens: channel `k` at flattened position `n` of the feature volume. -/
def tok (x : SVol.Idx → EReal) (k : Fin 256) (n : Fin 10368) : EReal := x (cell k n)

/-- A 128 × 256 weight array by coordinates. -/
def wmat (x : (⟨2, ![128, 256]⟩ : Shape).Idx → EReal) (p : Fin 128) (k : Fin 256) : EReal := x (ix2 p k)

/-- A bias vector of 128 entries by its coordinate. -/
def bvec (x : (⟨1, ![128]⟩ : Shape).Idx → EReal) (p : Fin 128) : EReal := x (ix1 p)

/-- The channel of an entry of the feature volume. -/
abbrev chan (i : SVol.Idx) : Fin 256 := ⟨(i 1).val, (i 1).isLt⟩

/-- The flattened position of an entry of the feature volume. -/
abbrev posn (i : SVol.Idx) : Fin 10368 :=
  ⟨((i 2).val * 24 + (i 3).val) * 24 + (i 4).val, by
    have h2 : (i 2).val < 18 := (i 2).isLt; have h3 : (i 3).val < 24 := (i 3).isLt; have h4 : (i 4).val < 24 := (i 4).isLt
    omega⟩

/-- Position `j` of block `t` of the three blocks of 3456 positions. -/
abbrev pos (t : Fin 3) (j : Fin 3456) : Fin 10368 := ⟨t.val * 3456 + j.val, by have := t.isLt; have := j.isLt; omega⟩

/-- The whole result, entry by entry of the feature volume, from the five argument arrays. -/
def result (x0 : SVol.Idx → EReal) (x1 : (⟨2, ![128, 256]⟩ : Shape).Idx → EReal) (x2 : (⟨1, ![128]⟩ : Shape).Idx → EReal)
    (x3 : (⟨2, ![128, 256]⟩ : Shape).Idx → EReal) (x4 : (⟨1, ![128]⟩ : Shape).Idx → EReal) : SVol.Idx → EReal :=
  fun i => outSmall (wmat x1) (bvec x2) (wmat x3) (bvec x4) (tok x0) (chan i) (posn i)

end Cert.NonLocal

end
-- ==== Proof.Layout.lean ====
/-
  The three changes of shape around the two kernels, read entry by entry.

  The feature volume (one batch of 256 channels over an 18 × 24 × 24 grid) and the 256 × 10368 matrix of tokens list the
  same entries in the same row-major order: token (k, n) is the volume's entry at channel k and grid cell
  (n / 576, n / 24 mod 24, n mod 24), and the volume's entry i is the token at its channel and at the flattened position
  (i₂·24 + i₃)·24 + i₄. A vector of 128 biases and the 128 × 1 column list the same entries.
-/
import proofs.«144963_j57260503990845_1_alg».proof.Proof.Spec
import Idealize.ShloMosaic.Lib.ValueIdx
import Idealize.ShloMosaic.Lib.Pipeline.Value

namespace Cert.NonLocal

open Idealize.ShloMosaic Idealize.ShloMosaic.ValueIdx

variable {α : Type}

/-- The volume flattened to the matrix of tokens reads, at (channel k, position n), the volume at the grid cell of n. -/
theorem reshape_tokens (x : SVol.Idx → α) (h : SVol.ShapeCasts ⟨2, ![256, 10368]⟩) (k : Fin 256) (n : Fin 10368) :
    shapeCast ⟨2, ![256, 10368]⟩ x h (ix2 k n) = x (cell k n) :=
  shapeCast_apply x h (ix2 k n) (cell k n) (by
    rw [Shape.rowMajor_val_five, Shape.rowMajor_val_two]
    have hk := k.isLt
    have hn := n.isLt
    show (((0 * 256 + k.val) * 18 + n.val / 576) * 24 + n.val / 24 % 24) * 24 + n.val % 24 = k.val * 10368 + n.val
    omega)

/-- The bias vector as a column reads, at (p, 0), the vector's entry p. -/
theorem reshape_bias (x : (⟨1, ![128]⟩ : Shape).Idx → α) (h : (⟨1, ![128]⟩ : Shape).ShapeCasts ⟨2, ![128, 1]⟩) (p : Fin 128) :
    shapeCast ⟨2, ![128, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- The matrix of tokens restored to the volume's shape reads, at entry i, the token at i's channel and flattened position. -/
theorem reshape_volume (y : (⟨2, ![256, 10368]⟩ : Shape).Idx → α) (h : (⟨2, ![256, 10368]⟩ : Shape).ShapeCasts SVol)
    (i : SVol.Idx) : shapeCast SVol y h i = y (ix2 (chan i) (posn i)) :=
  shapeCast_apply y h i (ix2 (chan i) (posn i)) (by
    rw [Shape.rowMajor_val_two, Shape.rowMajor_val_five]
    have h0 : (i 0).val < 1 := (i 0).isLt
    have h1 : (i 1).val < 256 := (i 1).isLt
    have h2 : (i 2).val < 18 := (i 2).isLt
    have h3 : (i 3).val < 24 := (i 3).isLt
    have h4 : (i 4).val < 24 := (i 4).isLt
    show (i 1).val * 10368 + (((i 2).val * 24 + (i 3).val) * 24 + (i 4).val)
      = ((((i 0).val * 256 + (i 1).val) * 18 + (i 2).val) * 24 + (i 3).val) * 24 + (i 4).val
    omega)

end Cert.NonLocal
-- ==== Proof.KI.Reads.lean ====
/-
  The contents of the core's buffers at the two regions' entries, read entry by entry in terms of the five argument
  arrays: the matrix of tokens is the feature volume flattened, the two bias columns are the bias vectors, the weights
  are the arguments themselves; the first region changes none of what the second reads except the small matrix.
-/
import proofs.«144963_j57260503990845_1_alg».proof.Proof.KI.Main
import proofs.«144963_j57260503990845_1_alg».proof.Proof.Layout

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx Cert.NonLocal

variable (m : (ℓ : Loc nD τ sig) → Buf (Elt Ideal) ℓ) (ρ : Dev nD → PrngReg)

/-! ## What the host reshapes leave -/

theorem W1_v0 (c : Dev nD) : W1 m ρ c (Proc.devRef .tc main_v0) = shapeCast S256x10368 (m ((c : Thread nD τ).loc main_arg0)) shapeCasts_S1x256x18x24x24_S256x10368 := by
  show StableHlo.after hostOps0 (W0 m ρ c) (Proc.devRef .tc main_v0) = _
  after_results; rfl
theorem W1_v1 (c : Dev nD) : W1 m ρ c (Proc.devRef .tc main_v1) = shapeCast S128x1 (m ((c : Thread nD τ).loc main_arg2)) shapeCasts_S128_S128x1 := by
  show StableHlo.after hostOps0 (W0 m ρ c) (Proc.devRef .tc main_v1) = _
  after_results; rfl
theorem W1_v2 (c : Dev nD) : W1 m ρ c (Proc.devRef .tc main_v2) = shapeCast S128x1 (m ((c : Thread nD τ).loc main_arg4)) shapeCasts_S128_S128x1 := by
  show StableHlo.after hostOps0 (W0 m ρ c) (Proc.devRef .tc main_v2) = _
  after_results; rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W4_v5 (c : Dev nD) : W4 m ρ c (Proc.devRef .tc main_v5) = shapeCast S1x256x18x24x24 (W3 m ρ c (Proc.devRef .tc main_v4)) shapeCasts_S256x10368_S1x256x18x24x24 := by
  show StableHlo.after hostOps2 (W3 m ρ c) (Proc.devRef .tc main_v5) = _
  after_results; rfl

/-! ## What the first region leaves of the arrays the second reads -/

theorem V2_v0 (c : Dev nD) : V2 m ρ c main_v0 = V1 m ρ c main_v0 :=
  (W2_arr m ρ c 0).trans (((dat0 (V1 m ρ) c).arrAt_in 0 rfl _).trans (A_eq0 (V1 m ρ) c 0))
theorem V2_arg1 (c : Dev nD) : V2 m ρ c main_arg1 = V1 m ρ c main_arg1 := W2_of_ne m ρ c main_arg1 (by decide)
theorem V2_v1 (c : Dev nD) : V2 m ρ c main_v1 = V1 m ρ c main_v1 := W2_of_ne m ρ c main_v1 (by decide)
theorem V2_v3 (c : Dev nD) : V2 m ρ c main_v3 = (dat0 (V1 m ρ) c).arrAt 3 cfg0.N := W2_arr m ρ c 3
theorem W3_v4 (c : Dev nD) : W3 m ρ c (Proc.devRef .tc main_v4) = (dat1 (V2 m ρ) c).arrAt 4 cfg1.N := W3_arr m ρ c 4

/-! ## Entry by entry, in the arguments -/

/-- The tokens at the first region's entry. -/
theorem tokV1 (c : Dev nD) (k : Fin 256) (n : Fin 10368) :
    (V1 m ρ c main_v0 : S256x10368.Idx → EReal) (ix2 k n) = tok (m ((c : Thread nD τ).loc main_arg0)) k n := by
  show W1 m ρ c (Proc.devRef .tc main_v0) (ix2 k n) = _
  rw [W1_v0]; exact reshape_tokens _ _ k n
/-- The second projection's weights and bias column at the first region's entry. -/
theorem wjV1 (c : Dev nD) (p : Fin 128) (k : Fin 256) :
    (V1 m ρ c main_arg3 : S128x256.Idx → EReal) (ix2 p k) = wmat (m ((c : Thread nD τ).loc main_arg3)) p k := by
  show W1 m ρ c (Proc.devRef .tc main_arg3) (ix2 p k) = _
  rw [W1_arg3]; rfl
theorem bjV1 (c : Dev nD) (p : Fin 128) :
    (V1 m ρ c main_v2 : S128x1.Idx → EReal) (ix2 p (0 : Fin 1)) = bvec (m ((c : Thread nD τ).loc main_arg4)) p := by
  show W1 m ρ c (Proc.devRef .tc main_v2) (ix2 p (0 : Fin 1)) = _
  rw [W1_v2]; exact reshape_bias _ _ p
/-- The tokens, the first projection's weights and bias column at the second region's entry. -/
theorem tokV2 (c : Dev nD) (k : Fin 256) (n : Fin 10368) :
    (V2 m ρ c main_v0 : S256x10368.Idx → EReal) (ix2 k n) = tok (m ((c : Thread nD τ).loc main_arg0)) k n := by
  rw [V2_v0]; exact tokV1 m ρ c k n
theorem wiV2 (c : Dev nD) (p : Fin 128) (k : Fin 256) :
    (V2 m ρ c main_arg1 : S128x256.Idx → EReal) (ix2 p k) = wmat (m ((c : Thread nD τ).loc main_arg1)) p k := by
  rw [V2_arg1]
  show W1 m ρ c (Proc.devRef .tc main_arg1) (ix2 p k) = _
  rw [W1_arg1]; rfl
theorem biV2 (c : Dev nD) (p : Fin 128) :
    (V2 m ρ c main_v1 : S128x1.Idx → EReal) (ix2 p (0 : Fin 1)) = bvec (m ((c : Thread nD τ).loc main_arg2)) p := by
  rw [V2_v1]
  show W1 m ρ c (Proc.devRef .tc main_v1) (ix2 p (0 : Fin 1)) = _
  rw [W1_v1]; exact reshape_bias _ _ p

end Cert.KernelIdeal.Fr

end
-- ==== Proof.KI.Pieces0.lean ====
/-
  What each case of the first region's body leaves behind, as one value.

  Every store of the body covers its whole buffer, and every load reads a whole buffer.  So the last store into a
  buffer decides its contents, and each loaded value is the contents of the buffer it reads.  At the first point the
  accumulator is first set to the zero matrix and then read back, so the step is added to the zero matrix; at a later
  point it is added to what the point before left.  At the last point the result window receives a read-back of the
  accumulator's new contents, which is the same value.
-/
import proofs.«144963_j57260503990845_1_alg».proof.Proof.KI.Body0
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

/-- The pair of offsets (0, 0) is the zero offset. -/
theorem hz2 : (![0, 0] : Fin 2 → Nat) = fun _ => 0 := funext fun a => by fin_cases a <;> rfl

/-- The first point: the step over the zero matrix. -/
theorem sout0_A_eq (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : cond0_0 i) (hc1 : ¬cond0_1 i)
    (x0 : Vec F S256x3456 .f32) (x1 : Vec F S128x256 .f32) (x2 : Vec F S128x1 .f32) :
    sout0_A c i arg1 harg1 arg2 harg2 arg3 harg3 arg4 harg4 arg5 harg5 hc0 hc1 x0 x1 x2 = k0_pay2 x0 x1 x2 (k0_pay1 (F := F)) := by
  unfold sout0_A
  rw [View.read_writes_eq_canon _ _ _ (scover0_A c i arg1 harg1 arg2 harg2 arg3 harg3 arg4 harg4 arg5 harg5 hc0 hc1 x0 x1 x2)]
  unfold kernelRun0_A
  dsimp only
  sl_unfold_words
  rw [View.canon_cons_unit_zero (S := S128x256) hz2, View.readCov_unit_zero (S := S128x256) _ hz2]
  simp only [View.readAt_eq_ld, harg1.read_unread, harg2.read_unread, harg3.read_unread,
    View.ld_unit_zero (S := S256x3456) hz2, View.ld_unit_zero (S := S128x256) hz2, View.ld_unit_zero (S := S128x1) hz2]

/-- A middle point: the step over what the point before left. -/
theorem sout0_B_eq (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : ¬cond0_1 i)
    (x0 : Vec F S256x3456 .f32) (x1 : Vec F S128x256 .f32) (x2 : Vec F S128x1 .f32) (xs0 : Vec F S128x256 .f32) :
    sout0_B c i arg1 harg1 arg2 harg2 arg3 harg3 arg4 harg4 arg5 harg5 hc0 hc1 x0 x1 x2 xs0 = k0_pay2 x0 x1 x2 xs0 := by
  unfold sout0_B
  rw [View.read_writes_eq_canon _ _ _ (scover0_B c i arg1 harg1 arg2 harg2 arg3 harg3 arg4 harg4 arg5 harg5 hc0 hc1 x0 x1 x2 xs0)]
  unfold kernelRun0_B
  dsimp only
  rw [View.canon_unit_zero (S := S128x256) hz2]
  simp only [View.readAt_eq_ld, harg1.read_unread, harg2.read_unread, harg3.read_unread, harg5.read_unread,
    View.ld_unit_zero (S := S256x3456) hz2, View.ld_unit_zero (S := S128x256) hz2, View.ld_unit_zero (S := S128x1) hz2]

/-- The last point, the accumulator: the step over what the point before left. -/
theorem sout0_C_eq (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) :
    sout0_C c i arg1 harg1 arg2 harg2 arg3 harg3 arg4 harg4 arg5 harg5 hc0 hc1 x0 x1 x2 xs0 = k0_pay2 x0 x1 x2 xs0 := by
  unfold sout0_C
  rw [View.read_writes_eq_canon _ _ _ (scover0_C c i arg1 harg1 arg2 harg2 arg3 harg3 arg4 harg4 arg5 harg5 hc0 hc1 x0 x1 x2 xs0)]
  unfold kernelRun0_C
  dsimp only
  sl_unfold_words
  rw [View.canon_unit_zero (S := S128x256) hz2]
  simp only [View.readAt_eq_ld, harg1.read_unread, harg2.read_unread, harg3.read_unread, harg5.read_unread,
    View.ld_unit_zero (S := S256x3456) hz2, View.ld_unit_zero (S := S128x256) hz2, View.ld_unit_zero (S := S128x1) hz2]

/-- The last point, the result window: the accumulator's new contents, read back. -/
theorem out0_C_eq (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec F S256x3456 .f32) (x1 : Vec F S128x256 .f32) (x2 : Vec F S128x1 .f32) (xs0 : Vec F S128x256 .f32) :
    out0_C c i arg1 harg1 arg2 harg2 arg3 harg3 arg4 harg4 arg5 harg5 hc0 hc1 x0 x1 x2 xs0 = k0_pay2 x0 x1 x2 xs0 := by
  unfold out0_C
  rw [View.read_writes_eq_canon _ _ _ (cover0_C c i arg1 harg1 arg2 harg2 arg3 harg3 arg4 harg4 arg5 harg5 hc0 hc1 x0 x1 x2 xs0)]
  unfold kernelRun0_C
  dsimp only
  sl_unfold_words
  rw [View.canon_unit_zero (S := S128x256) hz2, View.readCov_unit_zero (S := S128x256) _ hz2]
  simp only [View.readAt_eq_ld, harg1.read_unread, harg2.read_unread, harg3.read_unread, harg5.read_unread,
    View.ld_unit_zero (S := S256x3456) hz2, View.ld_unit_zero (S := S128x256) hz2, View.ld_unit_zero (S := S128x1) hz2]

end Cert.KernelIdeal.Fr

end
-- ==== Proof.Pay.lean ====
/-
  The arithmetic of the two kernel bodies, entry by entry, over the extended reals.

  Both bodies first form the projection of their block of tokens, (W·X + b)[p, j] = Σ_k W[p,k]·X[k,j] + b[p]
  (a product contracting the channels, then the bias column spread along the positions). The first kernel
  adds to its accumulator the product of that projection with the block itself, contracting the block's
  3456 positions: acc[p,q] + Σ_j proj[p,j]·X[q,j]. The second multiplies the finished small matrix with the
  projection, contracting the 128 features, scales by 1/10368 and adds the block:
  X[q,j] + (Σ_p M[p,q]·proj[p,j])·(1/10368). Changes of float format are the identity on extended reals, a
  product into a zero accumulator is the plain sum of products, and a cast to the same shape is the identity.
-/
import proofs.«144963_j57260503990845_1_alg».proof.Proof.Gen.KernelIdeal.Skeleton
import proofs.«144963_j57260503990845_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdeal

open Idealize.ShloMosaic Idealize.ShloMosaic.ValueIdx
open Cert.KernelIdeal Cert.KernelIdeal.Gen

/-! ## A column spread along the rows' positions -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ## The product contracting the channels: (W·X)[p, j] = Σ_k W[p,k]·X[k,j] -/

theorem chan_lhs0 (i : S128x3456.Idx) (q : dot_S128x256_S256x3456_S128x3456_1_0_0_1_n_n.contr.Idx) :
    (dot_S128x256_S256x3456_S128x3456_1_0_0_1_n_n.lhsIdx i q 0).val = (i 0).val := by
  unfold DotDims.lhsIdx
  rw [dif_neg (show ¬(0 : Fin S128x256.rank) ∈ dot_S128x256_S256x3456_S128x3456_1_0_0_1_n_n.lhsBatch by decide),
    dif_pos (show (0 : Fin S128x256.rank) ∈ dot_S128x256_S256x3456_S128x3456_1_0_0_1_n_n.lhsNonContracting by decide)]
  rfl
theorem chan_lhs1 (i : S128x3456.Idx) (q : dot_S128x256_S256x3456_S128x3456_1_0_0_1_n_n.contr.Idx) :
    (dot_S128x256_S256x3456_S128x3456_1_0_0_1_n_n.lhsIdx i q 1).val = (q ⟨0, by decide⟩).val :=
  dot_S128x256_S256x3456_S128x3456_1_0_0_1_n_n.lhsIdx_val_of_single rfl i q
theorem chan_rhs0 (i : S128x3456.Idx) (q : dot_S128x256_S256x3456_S128x3456_1_0_0_1_n_n.contr.Idx) :
    (dot_S128x256_S256x3456_S128x3456_1_0_0_1_n_n.rhsIdx i q 0).val = (q ⟨0, by decide⟩).val :=
  dot_S128x256_S256x3456_S128x3456_1_0_0_1_n_n.rhsIdx_val_of_single rfl i q
theorem chan_rhs1 (i : S128x3456.Idx) (q : dot_S128x256_S256x3456_S128x3456_1_0_0_1_n_n.contr.Idx) :
    (dot_S128x256_S256x3456_S128x3456_1_0_0_1_n_n.rhsIdx i q 1).val = (i 1).val := by
  unfold DotDims.rhsIdx
  rw [dif_neg (show ¬(1 : Fin S256x3456.rank) ∈ dot_S128x256_S256x3456_S128x3456_1_0_0_1_n_n.rhsBatch by decide),
    dif_pos (show (1 : Fin S256x3456.rank) ∈ dot_S128x256_S256x3456_S128x3456_1_0_0_1_n_n.rhsNonContracting by decide)]
  rfl

/-- Into a zero accumulator, the product of a 128 × 256 matrix with a 256 × 3456 block is the sum over the channels. -/
theorem matmul_chan (l : FVec Ideal S128x256 .bf16) (r : FVec Ideal S256x3456 .bf16) (p : Fin 128) (j : Fin 3456) :
    matmul dot_S128x256_S256x3456_S128x3456_1_0_0_1_n_n none l r (constant (F := Ideal) S128x3456 .f32 0x00000000#32) (ix2 p j)
      = ∑ k : Fin 256, l (ix2 p k) * r (ix2 k j) := by
  refine (Ideal.matmul_constant_zero_apply dot_S128x256_S256x3456_S128x3456_1_0_0_1_n_n none l r (ix2 p j)).trans ?_
  rw [← Equiv.sum_comp (contrEquiv1 dot_S128x256_S256x3456_S128x3456_1_0_0_1_n_n 256 rfl rfl).symm]
  refine Finset.sum_congr rfl fun k _ => ?_
  have hk := contrEquiv1_symm_val dot_S128x256_S256x3456_S128x3456_1_0_0_1_n_n 256 rfl rfl k
  have el : dot_S128x256_S256x3456_S128x3456_1_0_0_1_n_n.lhsIdx (ix2 p j) ((contrEquiv1 dot_S128x256_S256x3456_S128x3456_1_0_0_1_n_n 256 rfl rfl).symm k) = ix2 p k :=
    funext fun a => Fin.ext (by
      match a with
      | ⟨0, _⟩ => exact chan_lhs0 _ _
      | ⟨1, _⟩ => exact (chan_lhs1 _ _).trans hk)
  have er : dot_S128x256_S256x3456_S128x3456_1_0_0_1_n_n.rhsIdx (ix2 p j) ((contrEquiv1 dot_S128x256_S256x3456_S128x3456_1_0_0_1_n_n 256 rfl rfl).symm k) = ix2 k j :=
    funext fun a => Fin.ext (by
      match a with
      | ⟨0, _⟩ => exact (chan_rhs0 _ _).trans hk
      | ⟨1, _⟩ => exact chan_rhs1 _ _)
  rw [el, er]

/-! ## The product contracting the block's positions: (A·Xᵀ)[p, q] = Σ_j A[p,j]·X[q,j] -/

theorem posn_lhs0 (i : S128x256.Idx) (q : dot_S128x3456_S256x3456_S128x256_1_1_0_0_n_n.contr.Idx) :
    (dot_S128x3456_S256x3456_S128x256_1_1_0_0_n_n.lhsIdx i q 0).val = (i 0).val := by
  unfold DotDims.lhsIdx
  rw [dif_neg (show ¬(0 : Fin S128x3456.rank) ∈ dot_S128x3456_S256x3456_S128x256_1_1_0_0_n_n.lhsBatch by decide),
    dif_pos (show (0 : Fin S128x3456.rank) ∈ dot_S128x3456_S256x3456_S128x256_1_1_0_0_n_n.lhsNonContracting by decide)]
  rfl
theorem posn_lhs1 (i : S128x256.Idx) (q : dot_S128x3456_S256x3456_S128x256_1_1_0_0_n_n.contr.Idx) :
    (dot_S128x3456_S256x3456_S128x256_1_1_0_0_n_n.lhsIdx i q 1).val = (q ⟨0, by decide⟩).val :=
  dot_S128x3456_S256x3456_S128x256_1_1_0_0_n_n.lhsIdx_val_of_single rfl i q
theorem posn_rhs0 (i : S128x256.Idx) (q : dot_S128x3456_S256x3456_S128x256_1_1_0_0_n_n.contr.Idx) :
    (dot_S128x3456_S256x3456_S128x256_1_1_0_0_n_n.rhsIdx i q 0).val = (i 1).val := by
  unfold DotDims.rhsIdx
  rw [dif_neg (show ¬(0 : Fin S256x3456.rank) ∈ dot_S128x3456_S256x3456_S128x256_1_1_0_0_n_n.rhsBatch by decide),
    dif_pos (show (0 : Fin S256x3456.rank) ∈ dot_S128x3456_S256x3456_S128x256_1_1_0_0_n_n.rhsNonContracting by decide)]
  rfl
theorem posn_rhs1 (i : S128x256.Idx) (q : dot_S128x3456_S256x3456_S128x256_1_1_0_0_n_n.contr.Idx) :
    (dot_S128x3456_S256x3456_S128x256_1_1_0_0_n_n.rhsIdx i q 1).val = (q ⟨0, by decide⟩).val :=
  dot_S128x3456_S256x3456_S128x256_1_1_0_0_n_n.rhsIdx_val_of_single rfl i q

/-- Into a zero accumulator, the product of a 128 × 3456 matrix with the transpose of a 256 × 3456 block is the sum
    over the block's positions. -/
theorem matmul_posn (l : FVec Ideal S128x3456 .bf16) (r : FVec Ideal S256x3456 .bf16) (p : Fin 128) (q : Fin 256) :
    matmul dot_S128x3456_S256x3456_S128x256_1_1_0_0_n_n none l r (constant (F := Ideal) S128x256 .f32 0x00000000#32) (ix2 p q)
      = ∑ j : Fin 3456, l (ix2 p j) * r (ix2 q j) := by
  refine (Ideal.matmul_constant_zero_apply dot_S128x3456_S256x3456_S128x256_1_1_0_0_n_n none l r (ix2 p q)).trans ?_
  rw [← Equiv.sum_comp (contrEquiv1 dot_S128x3456_S256x3456_S128x256_1_1_0_0_n_n 3456 rfl rfl).symm]
  refine Finset.sum_congr rfl fun j _ => ?_
  have hj := contrEquiv1_symm_val dot_S128x3456_S256x3456_S128x256_1_1_0_0_n_n 3456 rfl rfl j
  have el : dot_S128x3456_S256x3456_S128x256_1_1_0_0_n_n.lhsIdx (ix2 p q) ((contrEquiv1 dot_S128x3456_S256x3456_S128x256_1_1_0_0_n_n 3456 rfl rfl).symm j) = ix2 p j :=
    funext fun a => Fin.ext (by
      match a with
      | ⟨0, _⟩ => exact posn_lhs0 _ _
      | ⟨1, _⟩ => exact (posn_lhs1 _ _).trans hj)
  have er : dot_S128x3456_S256x3456_S128x256_1_1_0_0_n_n.rhsIdx (ix2 p q) ((contrEquiv1 dot_S128x3456_S256x3456_S128x256_1_1_0_0_n_n 3456 rfl rfl).symm j) = ix2 q j :=
    funext fun a => Fin.ext (by
      match a with
      | ⟨0, _⟩ => exact posn_rhs0 _ _
      | ⟨1, _⟩ => exact (posn_rhs1 _ _).trans hj)
  rw [el, er]

/-! ## The product contracting the features: (Mᵀ·A)[q, j] = Σ_p M[p,q]·A[p,j] -/

theorem feat_lhs0 (i : S256x3456.Idx) (q : dot_S128x256_S128x3456_S256x3456_0_0_1_1_n_n.contr.Idx) :
    (dot_S128x256_S128x3456_S256x3456_0_0_1_1_n_n.lhsIdx i q 0).val = (q ⟨0, by decide⟩).val :=
  dot_S128x256_S128x3456_S256x3456_0_0_1_1_n_n.lhsIdx_val_of_single rfl i q
theorem feat_lhs1 (i : S256x3456.Idx) (q : dot_S128x256_S128x3456_S256x3456_0_0_1_1_n_n.contr.Idx) :
    (dot_S128x256_S128x3456_S256x3456_0_0_1_1_n_n.lhsIdx i q 1).val = (i 0).val := by
  unfold DotDims.lhsIdx
  rw [dif_neg (show ¬(1 : Fin S128x256.rank) ∈ dot_S128x256_S128x3456_S256x3456_0_0_1_1_n_n.lhsBatch by decide),
    dif_pos (show (1 : Fin S128x256.rank) ∈ dot_S128x256_S128x3456_S256x3456_0_0_1_1_n_n.lhsNonContracting by decide)]
  rfl
theorem feat_rhs0 (i : S256x3456.Idx) (q : dot_S128x256_S128x3456_S256x3456_0_0_1_1_n_n.contr.Idx) :
    (dot_S128x256_S128x3456_S256x3456_0_0_1_1_n_n.rhsIdx i q 0).val = (q ⟨0, by decide⟩).val :=
  dot_S128x256_S128x3456_S256x3456_0_0_1_1_n_n.rhsIdx_val_of_single rfl i q
theorem feat_rhs1 (i : S256x3456.Idx) (q : dot_S128x256_S128x3456_S256x3456_0_0_1_1_n_n.contr.Idx) :
    (dot_S128x256_S128x3456_S256x3456_0_0_1_1_n_n.rhsIdx i q 1).val = (i 1).val := by
  unfold DotDims.rhsIdx
  rw [dif_neg (show ¬(1 : Fin S128x3456.rank) ∈ dot_S128x256_S128x3456_S256x3456_0_0_1_1_n_n.rhsBatch by decide),
    dif_pos (show (1 : Fin S128x3456.rank) ∈ dot_S128x256_S128x3456_S256x3456_0_0_1_1_n_n.rhsNonContracting by decide)]
  rfl

/-- Into a zero accumulator, the product of the transpose of a 128 × 256 matrix with a 128 × 3456 matrix is the sum
    over the features. -/
theorem matmul_feat (l : FVec Ideal S128x256 .bf16) (r : FVec Ideal S128x3456 .bf16) (q : Fin 256) (j : Fin 3456) :
    matmul dot_S128x256_S128x3456_S256x3456_0_0_1_1_n_n none l r (constant (F := Ideal) S256x3456 .f32 0x00000000#32) (ix2 q j)
      = ∑ p : Fin 128, l (ix2 p q) * r (ix2 p j) := by
  refine (Ideal.matmul_constant_zero_apply dot_S128x256_S128x3456_S256x3456_0_0_1_1_n_n none l r (ix2 q j)).trans ?_
  rw [← Equiv.sum_comp (contrEquiv1 dot_S128x256_S128x3456_S256x3456_0_0_1_1_n_n 128 rfl rfl).symm]
  refine Finset.sum_congr rfl fun p _ => ?_
  have hp := contrEquiv1_symm_val dot_S128x256_S128x3456_S256x3456_0_0_1_1_n_n 128 rfl rfl p
  have el : dot_S128x256_S128x3456_S256x3456_0_0_1_1_n_n.lhsIdx (ix2 q j) ((contrEquiv1 dot_S128x256_S128x3456_S256x3456_0_0_1_1_n_n 128 rfl rfl).symm p) = ix2 p q :=
    funext fun a => Fin.ext (by
      match a with
      | ⟨0, _⟩ => exact (feat_lhs0 _ _).trans hp
      | ⟨1, _⟩ => exact feat_lhs1 _ _)
  have er : dot_S128x256_S128x3456_S256x3456_0_0_1_1_n_n.rhsIdx (ix2 q j) ((contrEquiv1 dot_S128x256_S128x3456_S256x3456_0_0_1_1_n_n 128 rfl rfl).symm p) = ix2 p j :=
    funext fun a => Fin.ext (by
      match a with
      | ⟨0, _⟩ => exact (feat_rhs0 _ _).trans hp
      | ⟨1, _⟩ => exact feat_rhs1 _ _)
  rw [el, er]

/-! ## The projection of a block: (W·X + b)[p, j] -/

/-- The projection as both bodies spell it: the product contracting the channels, plus the bias column spread along
    the positions, each operand and the result passed through a change of float format. -/
def projBlock (W : FVec Ideal S128x256 .f32) (b : FVec Ideal S128x1 .f32) (X : FVec Ideal S256x3456 .f32) :
    FVec Ideal S128x3456 .bf16 :=
  truncf .bf16 (addf (matmul dot_S128x256_S256x3456_S128x3456_1_0_0_1_n_n none (truncf .bf16 W bitsLt_bf16_f32) (truncf .bf16 X bitsLt_bf16_f32)
    (constant (F := Ideal) S128x3456 .f32 0x00000000#32)) (broadcastTo S128x3456 b broadcasts_S128x1_S128x3456)) bitsLt_bf16_f32

/-- Entry `(p, j)` of the projection is Σ_k W[p,k]·X[k,j] + b[p]. -/
theorem projBlock_apply (W : FVec Ideal S128x256 .f32) (b : FVec Ideal S128x1 .f32) (X : FVec Ideal S256x3456 .f32)
    (p : Fin 128) (j : Fin 3456) :
    projBlock W b X (ix2 p j) = (∑ k : Fin 256, W (ix2 p k) * X (ix2 k j)) + b (ix2 p (0 : Fin 1)) := by
  show matmul dot_S128x256_S256x3456_S128x3456_1_0_0_1_n_n none (truncf .bf16 W bitsLt_bf16_f32) (truncf .bf16 X bitsLt_bf16_f32)
      (constant (F := Ideal) S128x3456 .f32 0x00000000#32) (ix2 p j)
    + broadcastTo S128x3456 b broadcasts_S128x1_S128x3456 (ix2 p j) = _
  rw [matmul_chan, broadcastTo_a1_ab_apply]
  rfl

/-! ## The three payloads -/

/-- The first kernel's initial store is the zero matrix. -/
theorem pay_zero (j : S128x256.Idx) : k0_pay1 (F := Ideal) j = 0 := by
  unfold k0_pay1
  simp only [shapeCast_self]
  exact Ideal.ofBits_zero_f32

/-- One accumulation step of the first kernel: the accumulator plus the block's contribution to the small matrix,
    Σ_j proj[p,j]·X[q,j] over the block's 3456 positions. -/
theorem pay_acc (v3 : Vec Ideal S256x3456 .f32) (v5 : Vec Ideal S128x256 .f32) (v6 : Vec Ideal S128x1 .f32)
    (v15 : Vec Ideal S128x256 .f32) (p : Fin 128) (q : Fin 256) :
    k0_pay2 (F := Ideal) v3 v5 v6 v15 (ix2 p q)
      = v15 (ix2 p q) + ∑ j : Fin 3456, ((∑ k : Fin 256, v5 (ix2 p k) * v3 (ix2 k j)) + v6 (ix2 p (0 : Fin 1))) * v3 (ix2 q j) := by
  have e : k0_pay2 (F := Ideal) v3 v5 v6 v15
      = addf v15 (matmul dot_S128x3456_S256x3456_S128x256_1_1_0_0_n_n none (projBlock v5 v6 v3) (truncf .bf16 v3 bitsLt_bf16_f32)
          (constant (F := Ideal) S128x256 .f32 0x00000000#32)) := by
    unfold k0_pay2 projBlock
    simp only [shapeCast_self]
  rw [e]
  show v15 (ix2 p q) + matmul dot_S128x3456_S256x3456_S128x256_1_1_0_0_n_n none (projBlock v5 v6 v3) (truncf .bf16 v3 bitsLt_bf16_f32)
      (constant (F := Ideal) S128x256 .f32 0x00000000#32) (ix2 p q) = _
  rw [matmul_posn]
  refine congrArg (v15 (ix2 p q) + ·) (Finset.sum_congr rfl fun j _ => ?_)
  rw [projBlock_apply]
  rfl

/-- The second kernel's output block: the block plus the small matrix applied to the projection, Σ_p M[p,q]·proj[p,j],
    scaled by 1/10368. -/
theorem pay_out (v0 : Vec Ideal S256x3456 .f32) (v2 : Vec Ideal S128x256 .f32) (v3 : Vec Ideal S128x1 .f32)
    (v5 : Vec Ideal S128x256 .f32) (q : Fin 256) (j : Fin 3456) :
    k1_pay1 (F := Ideal) v0 v2 v3 v5 (ix2 q j)
      = v0 (ix2 q j) + (∑ p : Fin 128, v5 (ix2 p q) * ((∑ k : Fin 256, v2 (ix2 p k) * v0 (ix2 k j)) + v3 (ix2 p (0 : Fin 1))))
          * ((1 / 10368 : ℝ) : EReal) := by
  have e : k1_pay1 (F := Ideal) v0 v2 v3 v5
      = addf v0 (mulf (matmul dot_S128x256_S128x3456_S256x3456_0_0_1_1_n_n none (truncf .bf16 v5 bitsLt_bf16_f32) (projBlock v2 v3 v0)
          (constant (F := Ideal) S256x3456 .f32 0x00000000#32))
          (broadcast S256x3456 (Named.named (F := Ideal) κ "inv_10368" (φ := .f32) 0x38CA4588#32))) := by
    unfold k1_pay1 projBlock
    simp only [shapeCast_self]
  rw [e]
  show v0 (ix2 q j) + matmul dot_S128x256_S128x3456_S256x3456_0_0_1_1_n_n none (truncf .bf16 v5 bitsLt_bf16_f32) (projBlock v2 v3 v0)
      (constant (F := Ideal) S256x3456 .f32 0x00000000#32) (ix2 q j)
      * Named.named (F := Ideal) κ "inv_10368" (φ := .f32) 0x38CA4588#32 = _
  rw [matmul_feat, IdealRules.named_const.ideal_named_scalar κ "inv_10368" _ ((1 / 10368 : ℝ) : EReal) rfl]
  refine congrArg (fun s => v0 (ix2 q j) + s * ((1 / 10368 : ℝ) : EReal)) (Finset.sum_congr rfl fun p _ => ?_)
  rw [projBlock_apply]
  rfl

end Cert.KernelIdeal.PayIdeal

end
-- ==== Proof.KI.Acc0.lean ====
/-
  The small matrix after the last of the three points, entry by entry.

  One point adds to entry (p, q) of the accumulator the block's contribution
  Σ_j (Σ_k W[p,k]·X[k,j] + b[p]) · X[q,j], the sum over the block's 3456 positions.  The first point adds it to the zero
  matrix, each later point to what the point before left, and the last point also hands the accumulator's new contents
  to the result window.  Unrolling the three points gives ((0 + s₀) + s₁) + s₂ of the three blocks' contributions.
-/
import proofs.«144963_j57260503990845_1_alg».proof.Proof.KI.Pieces0
import proofs.«144963_j57260503990845_1_alg».proof.Proof.Pay

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

open Idealize.ShloMosaic.ValueIdx Cert.KernelIdeal.PayIdeal
open scoped BigOperators

/-- One block's contribution to entry (p, q) of the small matrix: the projection of the block (weights x1, bias x2)
    against the block x0 itself, summed over the block's positions. -/
def stepOf (x0 : Vec Ideal S256x3456 .f32) (x1 : Vec Ideal S128x256 .f32) (x2 : Vec Ideal S128x1 .f32)
    (p : Fin 128) (q : Fin 256) : EReal :=
  ∑ j : Fin 3456, ((∑ k : Fin 256, x1 (ix2 p k) * x0 (ix2 k j)) + x2 (ix2 p (0 : Fin 1))) * x0 (ix2 q j)

/-- The first point leaves the contribution over zero. -/
theorem valA (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : cond0_0 i) (hc1 : ¬cond0_1 i)
    (x0 : Vec Ideal S256x3456 .f32) (x1 : Vec Ideal S128x256 .f32) (x2 : Vec Ideal S128x1 .f32) (p : Fin 128) (q : Fin 256) :
    sout0_A (F := Ideal) c i arg1 harg1 arg2 harg2 arg3 harg3 arg4 harg4 arg5 harg5 hc0 hc1 x0 x1 x2 (ix2 p q) = 0 + stepOf x0 x1 x2 p q := by
  rw [sout0_A_eq, pay_acc, pay_zero]
  rfl

/-- A middle point adds the contribution to what it found. -/
theorem valB (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : ¬cond0_1 i)
    (x0 : Vec Ideal S256x3456 .f32) (x1 : Vec Ideal S128x256 .f32) (x2 : Vec Ideal S128x1 .f32) (xs0 : Vec Ideal S128x256 .f32) (p : Fin 128) (q : Fin 256) :
    sout0_B (F := Ideal) c i arg1 harg1 arg2 harg2 arg3 harg3 arg4 harg4 arg5 harg5 hc0 hc1 x0 x1 x2 xs0 (ix2 p q) = xs0 (ix2 p q) + stepOf x0 x1 x2 p q := by
  rw [sout0_B_eq, pay_acc]
  rfl

/-- The last point adds the contribution to what it found, in the accumulator … -/
theorem valC (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec Ideal S256x3456 .f32) (x1 : Vec Ideal S128x256 .f32) (x2 : Vec Ideal S128x1 .f32) (xs0 : Vec Ideal S128x256 .f32) (p : Fin 128) (q : Fin 256) :
    sout0_C (F := Ideal) c i arg1 harg1 arg2 harg2 arg3 harg3 arg4 harg4 arg5 harg5 hc0 hc1 x0 x1 x2 xs0 (ix2 p q) = xs0 (ix2 p q) + stepOf x0 x1 x2 p q := by
  rw [sout0_C_eq, pay_acc]
  rfl

/-- … and in the result window. -/
theorem valC_out (c : Dev nD) (i : grid0.Coords) (arg1 : Memref sig .tc .vmem S256x3456 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x256 .f32) (harg4 : arg4.IsWhole) (arg5 : Memref sig .tc .vmem S128x256 .f32) (harg5 : arg5.IsWhole) (hc0 : ¬cond0_0 i) (hc1 : cond0_1 i)
    (x0 : Vec Ideal S256x3456 .f32) (x1 : Vec Ideal S128x256 .f32) (x2 : Vec Ideal S128x1 .f32) (xs0 : Vec Ideal S128x256 .f32) (p : Fin 128) (q : Fin 256) :
    out0_C (F := Ideal) c i arg1 harg1 arg2 harg2 arg3 harg3 arg4 harg4 arg5 harg5 hc0 hc1 x0 x1 x2 xs0 (ix2 p q) = xs0 (ix2 p q) + stepOf x0 x1 x2 p q := by
  rw [out0_C_eq, pay_acc]
  rfl

section Region0
variable (V : (c : Dev nD) → (b : Ref sig .tc) → Buf (Elt Ideal) ((c : Thread nD τ).loc b))

/-- The block of tokens at point t: 256 channels by 3456 positions. -/
def blk0 (c : Dev nD) (t : Fin cfg0.N) : Vec Ideal S256x3456 .f32 := iblk0 V c 0 t
/-- The projection's weights as the region finds them at point t. -/
def blk1 (c : Dev nD) (t : Fin cfg0.N) : Vec Ideal S128x256 .f32 := iblk0 V c 1 t
/-- The projection's bias column as the region finds it at point t. -/
def blk2 (c : Dev nD) (t : Fin cfg0.N) : Vec Ideal S128x1 .f32 := iblk0 V c 2 t

theorem blk0_eq (c : Dev nD) (t : Fin cfg0.N) : blk0 V c t = iblk0 V c 0 t := rfl
theorem blk1_eq (c : Dev nD) (t : Fin cfg0.N) : blk1 V c t = iblk0 V c 1 t := rfl
theorem blk2_eq (c : Dev nD) (t : Fin cfg0.N) : blk2 V c t = iblk0 V c 2 t := rfl

/-- The contribution of the block at point t. -/
def blockStep (c : Dev nD) (p : Fin 128) (q : Fin 256) (t : Fin cfg0.N) : EReal :=
  stepOf (blk0 V c t) (blk1 V c t) (blk2 V c t) p q

theorem blockStep_def (c : Dev nD) (p : Fin 128) (q : Fin 256) (t : Fin cfg0.N) :
    blockStep V c p q t
      = ∑ j : Fin 3456, ((∑ k : Fin 256, blk1 V c t (ix2 p k) * blk0 V c t (ix2 k j)) + blk2 V c t (ix2 p (0 : Fin 1)))
          * blk0 V c t (ix2 q j) := rfl

/-- After the first point the accumulator holds the first block's contribution over zero. -/
theorem acc_first (c : Dev nD) (t : Fin cfg0.N) (h0 : t.val % 3 = 0) (h1 : ¬t.val % 3 = 2) (p : Fin 128) (q : Fin 256) :
    (outsAt0 V c t.val t.isLt).2 (ix2 p q) = 0 + blockStep V c p q t := by
  refine (congrArg (fun pr : Vec Ideal S128x256 .f32 × Vec Ideal S128x256 .f32 => pr.2 (ix2 p q)) (outsAt0_A V c t h0 h1)).trans ?_
  exact valA c (grid0.coords t) (ms0_0 t) (hs0_0 t) (ms0_1 t) (hs0_1 t) (ms0_2 t) (hs0_2 t) (ms0_3 t) (hs0_3 t) scM0 (Memref.isWhole_whole _)
    ((hcond0_0 t).mpr h0) (fun h => h1 ((hcond0_1 t).mp h)) (iblk0 V c 0 t) (iblk0 V c 1 t) (iblk0 V c 2 t) p q

/-- After a middle point the accumulator holds what the point before left plus this block's contribution. -/
theorem acc_mid (c : Dev nD) (t : Fin cfg0.N) (h0 : ¬t.val % 3 = 0) (h1 : ¬t.val % 3 = 2) (p : Fin 128) (q : Fin 256) :
    (outsAt0 V c t.val t.isLt).2 (ix2 p q)
      = (outsAt0 V c (t.val - 1) (Nat.lt_of_le_of_lt (Nat.sub_le _ _) t.isLt)).2 (ix2 p q) + blockStep V c p q t := by
  refine (congrArg (fun pr : Vec Ideal S128x256 .f32 × Vec Ideal S128x256 .f32 => pr.2 (ix2 p q)) (outsAt0_B V c t h0 h1)).trans ?_
  exact valB c (grid0.coords t) (ms0_0 t) (hs0_0 t) (ms0_1 t) (hs0_1 t) (ms0_2 t) (hs0_2 t) (ms0_3 t) (hs0_3 t) scM0 (Memref.isWhole_whole _)
    (fun h => h0 ((hcond0_0 t).mp h)) (fun h => h1 ((hcond0_1 t).mp h)) (iblk0 V c 0 t) (iblk0 V c 1 t) (iblk0 V c 2 t)
    (outsAt0 V c (t.val - 1) (Nat.lt_of_le_of_lt (Nat.sub_le _ _) t.isLt)).2 p q

/-- After the last point the result window holds what the point before left plus this block's contribution. -/
theorem win_last (c : Dev nD) (t : Fin cfg0.N) (h0 : ¬t.val % 3 = 0) (h1 : t.val % 3 = 2) (p : Fin 128) (q : Fin 256) :
    (outsAt0 V c t.val t.isLt).1 (ix2 p q)
      = (outsAt0 V c (t.val - 1) (Nat.lt_of_le_of_lt (Nat.sub_le _ _) t.isLt)).2 (ix2 p q) + blockStep V c p q t := by
  refine (congrArg (fun pr : Vec Ideal S128x256 .f32 × Vec Ideal S128x256 .f32 => pr.1 (ix2 p q)) (outsAt0_C V c t h0 h1)).trans ?_
  exact valC_out c (grid0.coords t) (ms0_0 t) (hs0_0 t) (ms0_1 t) (hs0_1 t) (ms0_2 t) (hs0_2 t) (ms0_3 t) (hs0_3 t) scM0 (Memref.isWhole_whole _)
    (fun h => h0 ((hcond0_0 t).mp h)) ((hcond0_1 t).mpr h1) (iblk0 V c 0 t) (iblk0 V c 1 t) (iblk0 V c 2 t)
    (outsAt0 V c (t.val - 1) (Nat.lt_of_le_of_lt (Nat.sub_le _ _) t.isLt)).2 p q

/-- The accumulator after the last point likewise. -/
theorem acc_last (c : Dev nD) (t : Fin cfg0.N) (h0 : ¬t.val % 3 = 0) (h1 : t.val % 3 = 2) (p : Fin 128) (q : Fin 256) :
    (outsAt0 V c t.val t.isLt).2 (ix2 p q)
      = (outsAt0 V c (t.val - 1) (Nat.lt_of_le_of_lt (Nat.sub_le _ _) t.isLt)).2 (ix2 p q) + blockStep V c p q t := by
  refine (congrArg (fun pr : Vec Ideal S128x256 .f32 × Vec Ideal S128x256 .f32 => pr.2 (ix2 p q)) (outsAt0_C V c t h0 h1)).trans ?_
  exact valC c (grid0.coords t) (ms0_0 t) (hs0_0 t) (ms0_1 t) (hs0_1 t) (ms0_2 t) (hs0_2 t) (ms0_3 t) (hs0_3 t) scM0 (Memref.isWhole_whole _)
    (fun h => h0 ((hcond0_0 t).mp h)) ((hcond0_1 t).mpr h1) (iblk0 V c 0 t) (iblk0 V c 1 t) (iblk0 V c 2 t)
    (outsAt0 V c (t.val - 1) (Nat.lt_of_le_of_lt (Nat.sub_le _ _) t.isLt)).2 p q

/-- What the last point leaves in the result window: the three blocks' contributions added, in point order, to zero. -/
theorem result_window_last (c : Dev nD) (p : Fin 128) (q : Fin 256) :
    (outsAt0 V c 2 (by rw [show cfg0.N = 3 from N_0]; decide)).1 (ix2 p q)
      = ((0 + blockStep V c p q t0_0) + blockStep V c p q t0_1) + blockStep V c p q t0_2 := by
  have e2 := win_last V c t0_2 (by decide) (by decide) p q
  have e1 := acc_mid V c t0_1 (by decide) (by decide) p q
  have e0 := acc_first V c t0_0 (by decide) (by decide) p q
  exact e2.trans (congrArg (· + blockStep V c p q t0_2) (e1.trans (congrArg (· + blockStep V c p q t0_1) e0)))

end Region0

end Cert.KernelIdeal.Fr

end
-- ==== Proof.KI.Blocks.lean ====
/-
  From blocks to arrays, for the two regions.

  Each window's block at a grid point is a rectangle of its array: the tokens' block at point t holds all 256 channels at
  the positions 3456·t … 3456·t + 3455, and every other input's one block is its whole array. The first region writes its
  result back once, at the last point, through a block that is the whole small matrix; the second writes back at every
  point, its three blocks tiling the result's 10368 positions, so each entry of the result is the body's payload of the
  four blocks of the point whose block holds it.
-/
import proofs.«144963_j57260503990845_1_alg».proof.Proof.KI.Body0
import proofs.«144963_j57260503990845_1_alg».proof.Proof.KI.Body1
import Idealize.ShloMosaic.Lib.Pipeline.Value
import Idealize.ShloMosaic.Lib.ValueIdx
import proofs.«144963_j57260503990845_1_alg».proof.Proof.Pay

set_option maxRecDepth 16384

noncomputable section

open scoped BigOperators

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.KernelIdeal Cert.KernelIdeal.Gen

variable {F : FTy → Type} [FloatOps F] [Named F]

section Blocks
-- the contents of the core's buffers when a region is entered
variable (V : (c : Dev nD) → (b : Ref sig .tc) → Buf (Elt F) ((c : Thread nD τ).loc b))

/-! ## Where the blocks sit: the index maps, decided over the three grid points -/

/-- The zero offsets of a whole-buffer rectangle, as the constant function. -/
theorem zero_offsets : (![0, 0] : Fin 2 → Nat) = fun _ => 0 := funext fun a => by fin_cases a <;> rfl

/-- The tokens' block at point `t` is block `(0, t)`: all 256 channels, positions `3456·t … 3456·t + 3455`. -/
theorem win0_0_at : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem win1_0_at : ∀ t : Fin cfg1.N, win1_0.index t (0 : Fin 2) = 0 ∧ win1_0.index t (1 : Fin 2) = t.val :=
  (by decide +kernel : ∀ t : Fin grid1.N, win1_0.index t (0 : Fin 2) = 0 ∧ win1_0.index t (1 : Fin 2) = t.val)
/-- So is the result's block of the second region. -/
theorem win1_4_at : ∀ t : Fin cfg1.N, win1_4.index t (0 : Fin 2) = 0 ∧ win1_4.index t (1 : Fin 2) = t.val :=
  (by decide +kernel : ∀ t : Fin grid1.N, win1_4.index t (0 : Fin 2) = 0 ∧ win1_4.index t (1 : Fin 2) = t.val)
/-- The other windows' one block is their whole array, at every point. -/
theorem win0_1_whole : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem win0_2_whole : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem win0_3_whole : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem win1_1_whole : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem win1_2_whole : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem win1_3_whole : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-! ## The blocks read at an index

A block's entry sits in its array, on each axis, at the block index times the block's size plus its own coordinate. -/

/-- First region: entry `(k, j)` of the tokens' block at point `t` is the token of channel `k` at position `3456·t + j`. -/
theorem blk0_tok (c : Dev nD) (t : Fin cfg0.N) (k : Fin 256) (j : Fin 3456) :
    (iblk0 V c 0 t : Vec F S256x3456 .f32) (ix2 k j)
      = (V c main_v0 : Vec F S256x10368 .f32) (ix2 k ⟨t.val * 3456 + j.val, by
          have hN : t.val < 3 := lt_of_lt_of_eq t.isLt (show cfg0.N = 3 from N_0); have := j.isLt; omega⟩) := by
  obtain ⟨e0, e1⟩ := win0_0_at t
  show V c main_v0 (((cfg0.win 0).blk t).view.emb (ix2 k j)) = _
  refine congrArg (V c main_v0) (funext fun a => Fin.ext ?_)
  match a with
  | ⟨0, _⟩ => show win0_0.index t (0 : Fin 2) * 256 + 1 * k.val = k.val; omega
  | ⟨1, _⟩ => show win0_0.index t (1 : Fin 2) * 3456 + 1 * j.val = t.val * 3456 + j.val; omega

/-- First region: the weights' block is the weight array, -/
theorem blk0_w (c : Dev nD) (t : Fin cfg0.N) : (iblk0 V c 1 t : Vec F S128x256 .f32) = V c main_arg3 := by
  obtain ⟨e0, e1⟩ := win0_1_whole t
  funext y
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- and the bias column's block the column. -/
theorem blk0_b (c : Dev nD) (t : Fin cfg0.N) : (iblk0 V c 2 t : Vec F S128x1 .f32) = V c main_v2 := by
  obtain ⟨e0, e1⟩ := win0_2_whole t
  funext y
  show V c main_v2 (((cfg0.win 2).blk t).view.emb y) = V c main_v2 y
  refine congrArg (V c main_v2) (funext fun a => Fin.ext ?_)
  match a with
  | ⟨0, _⟩ => show win0_2.index t (0 : Fin 2) * 128 + 1 * (y 0).val = (y 0).val; omega
  | ⟨1, _⟩ => show win0_2.index t (1 : Fin 2) * 1 + 1 * (y 1).val = (y 1).val; omega

/-- Second region: entry `(k, j)` of the tokens' block at point `t` is the token of channel `k` at position `3456·t + j`. -/
theorem blk1_tok (c : Dev nD) (t : Fin cfg1.N) (k : Fin 256) (j : Fin 3456) :
    (iblk1 V c 0 t : Vec F S256x3456 .f32) (ix2 k j)
      = (V c main_v0 : Vec F S256x10368 .f32) (ix2 k ⟨t.val * 3456 + j.val, by
          have hN : t.val < 3 := lt_of_lt_of_eq t.isLt (show cfg1.N = 3 from N_1); have := j.isLt; omega⟩) := by
  obtain ⟨e0, e1⟩ := win1_0_at t
  show V c main_v0 (((cfg1.win 0).blk t).view.emb (ix2 k j)) = _
  refine congrArg (V c main_v0) (funext fun a => Fin.ext ?_)
  match a with
  | ⟨0, _⟩ => show win1_0.index t (0 : Fin 2) * 256 + 1 * k.val = k.val; omega
  | ⟨1, _⟩ => show win1_0.index t (1 : Fin 2) * 3456 + 1 * j.val = t.val * 3456 + j.val; omega

/-- Second region: the weights' block is the weight array, -/
theorem blk1_w (c : Dev nD) (t : Fin cfg1.N) : (iblk1 V c 1 t : Vec F S128x256 .f32) = V c main_arg1 := by
  obtain ⟨e0, e1⟩ := win1_1_whole t
  funext y
  show V c main_arg1 (((cfg1.win 1).blk t).view.emb y) = V c main_arg1 y
  refine congrArg (V c main_arg1) (funext fun a => Fin.ext ?_)
  match a with
  | ⟨0, _⟩ => show win1_1.index t (0 : Fin 2) * 128 + 1 * (y 0).val = (y 0).val; omega
  | ⟨1, _⟩ => show win1_1.index t (1 : Fin 2) * 256 + 1 * (y 1).val = (y 1).val; omega

/-- the bias column's block the column, -/
theorem blk1_b (c : Dev nD) (t : Fin cfg1.N) : (iblk1 V c 2 t : Vec F S128x1 .f32) = V c main_v1 := by
  obtain ⟨e0, e1⟩ := win1_2_whole t
  funext y
  show V c main_v1 (((cfg1.win 2).blk t).view.emb y) = V c main_v1 y
  refine congrArg (V c main_v1) (funext fun a => Fin.ext ?_)
  match a with
  | ⟨0, _⟩ => show win1_2.index t (0 : Fin 2) * 128 + 1 * (y 0).val = (y 0).val; omega
  | ⟨1, _⟩ => show win1_2.index t (1 : Fin 2) * 1 + 1 * (y 1).val = (y 1).val; omega

/-- and the small matrix's block the small matrix. -/
theorem blk1_m (c : Dev nD) (t : Fin cfg1.N) : (iblk1 V c 3 t : Vec F S128x256 .f32) = V c main_v3 := by
  obtain ⟨e0, e1⟩ := win1_3_whole t
  funext y
  show V c main_v3 (((cfg1.win 3).blk t).view.emb y) = V c main_v3 y
  refine congrArg (V c main_v3) (funext fun a => Fin.ext ?_)
  match a with
  | ⟨0, _⟩ => show win1_3.index t (0 : Fin 2) * 128 + 1 * (y 0).val = (y 0).val; omega
  | ⟨1, _⟩ => show win1_3.index t (1 : Fin 2) * 256 + 1 * (y 1).val = (y 1).val; omega

/-- The second body's one store, over its whole block, leaves its payload of the four blocks it loads whole. -/
theorem out1_4_eq (x0 : Vec F S256x3456 .f32) (x1 : Vec F S128x256 .f32) (x2 : Vec F S128x1 .f32) (x3 : Vec F S128x256 .f32) :
    out1_4 x0 x1 x2 x3 = k1_pay1 x0 x1 x2 x3 := by
  unfold out1_4
  rw [View.canon_unit_zero zero_offsets]
  simp only [View.ld_unit_zero (S := S256x3456) zero_offsets, View.ld_unit_zero (S := S128x256) zero_offsets,
    View.ld_unit_zero (S := S128x1) zero_offsets]

/-! ## The first region's result array: one write-back, at the last point, of the whole array -/

/-- An index of the small matrix is in point `t`'s block iff each coordinate is in the block's range on its axis. -/
theorem mem_blk0_3 (t : Fin cfg0.N) (i : S128x256.Idx) :
    i ∈ ((cfg0.win 3).blk t).view.set ↔ ∀ a : Fin 2, win0_3.index t a * S128x256.size a ≤ (i a).val
      ∧ (i a).val < win0_3.index t a * S128x256.size a + S128x256.size a := by
  show i ∈ ((View.whole main_v3).slice (win0_3.rect t)).set ↔ _
  rw [View.set_slice_whole, Rect.mem_set_unit]
  exact Iff.rfl

/-- If the last point leaves `G` in the result window's buffer, the array ends holding `G`: that point's block is the
    whole array and no other point writes back. -/
theorem arr0_of (c : Dev nD) (G : Vec F S128x256 .f32) (hG : ∀ t : Fin cfg0.N, t.val % 3 = 2 → (dat0 V c).after 3 t = G) :
    ((dat0 V c).arrAt 3 cfg0.N : Vec F S128x256 .f32) = G := by
  refine (dat0 V c).arrAt_eq_of_cover 3 G (fun t hf => ?_) (fun i => ?_)
  · show (cfg0.win 3).cut (grid0.coords t) ((dat0 V c).after 3 t) = _
    rw [hG t ((flush0_3 t).mp hf)]
    obtain ⟨e0, e1⟩ := win0_3_whole t
    funext y
    show G _ = G (((cfg0.win 3).blk t).view.emb y)
    refine congrArg G (funext fun a => Fin.ext ?_)
    match a with
    | ⟨0, _⟩ => show (y 0).val = win0_3.index t (0 : Fin 2) * 128 + 1 * (y 0).val; omega
    | ⟨1, _⟩ => show (y 1).val = win0_3.index t (1 : Fin 2) * 256 + 1 * (y 1).val; omega
  · have hi0 : (i 0).val < 128 := (i 0).isLt
    have hi1 : (i 1).val < 256 := (i 1).isLt
    refine ⟨⟨2, by rw [show cfg0.N = 3 from N_0]; decide⟩, (flush0_3 _).mpr rfl, ?_⟩
    obtain ⟨e0, e1⟩ := win0_3_whole ⟨2, by rw [show cfg0.N = 3 from N_0]; decide⟩
    rw [mem_blk0_3]
    intro a
    match a with
    | ⟨0, _⟩ =>
      show win0_3.index ⟨2, _⟩ (0 : Fin 2) * 128 ≤ (i 0).val ∧ (i 0).val < win0_3.index ⟨2, _⟩ (0 : Fin 2) * 128 + 128
      omega
    | ⟨1, _⟩ =>
      show win0_3.index ⟨2, _⟩ (1 : Fin 2) * 256 ≤ (i 1).val ∧ (i 1).val < win0_3.index ⟨2, _⟩ (1 : Fin 2) * 256 + 256
      omega

/-- THE SMALL MATRIX after the first region is what the last point left in the result window's buffer. -/
theorem arr0 (c : Dev nD) :
    ((dat0 V c).arrAt 3 cfg0.N : Vec F S128x256 .f32)
      = (outsAt0 V c 2 (by rw [show cfg0.N = 3 from N_0]; decide)).1 :=
  arr0_of V c _ fun t h2 => by
    rw [after0_3]
    obtain ⟨n, hn⟩ := t
    have hN : n < 3 := lt_of_lt_of_eq hn (show cfg0.N = 3 from N_0)
    have h2' : n % 3 = 2 := h2
    obtain rfl : n = 2 := by omega
    rfl

/-! ## The second region's result array, block by block -/

/-- The result's index map sends distinct points to distinct blocks, -/
theorem win1_4_inj : ∀ t t' : Fin cfg1.N, win1_4.index t = win1_4.index t' → t = t' :=
  (by decide +kernel : ∀ t t' : Fin grid1.N, win1_4.index t = win1_4.index t' → t = t')

/-- so two points' blocks share no entry of the array, -/
theorem disjoint1_4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne (win1_4_inj t t' h)

/-- and block `t` of the final array, read back, is what point `t` wrote back. -/
theorem blocks1_4 (c : Dev nD) (t : Fin cfg1.N) :
    ((cfg1.win 4).blk t).view.read (Elt F) ((dat1 V c).arrAt 4 cfg1.N) = (dat1 V c).flushed 4 t :=
  (dat1 V c).read_blk_arrAt_eq_flushed 4 disjoint1_4 cfg1.N t t.isLt (flush1_4 t)

/-- THE RESULT after the second region, at channel `q` and position `3456·t + j`: the body's payload of the four
    blocks of point `t`, at `(q, j)`. -/
theorem arr1 (c : Dev nD) (t : Fin cfg1.N) (q : Fin 256) (j : Fin 3456) :
    ((dat1 V c).arrAt 4 cfg1.N : Vec F S256x10368 .f32) (ix2 q ⟨t.val * 3456 + j.val, by
          have hN : t.val < 3 := lt_of_lt_of_eq t.isLt (show cfg1.N = 3 from N_1); have := j.isLt; omega⟩)
      = k1_pay1 (iblk1 V c 0 t) (iblk1 V c 1 t) (iblk1 V c 2 t) (iblk1 V c 3 t) (ix2 q j) := by
  obtain ⟨e0, e1⟩ := win1_4_at t
  have he : ((cfg1.win 4).blk t).view.emb (ix2 q j : S256x3456.Idx)
      = (ix2 q ⟨t.val * 3456 + j.val, by
          have hN : t.val < 3 := lt_of_lt_of_eq t.isLt (show cfg1.N = 3 from N_1); have := j.isLt; omega⟩ : S256x10368.Idx) :=
    funext fun a => Fin.ext (by
      match a with
      | ⟨0, _⟩ => show win1_4.index t (0 : Fin 2) * 256 + 1 * q.val = q.val; omega
      | ⟨1, _⟩ => show win1_4.index t (1 : Fin 2) * 3456 + 1 * j.val = t.val * 3456 + j.val; omega)
  have hb : (dat1 V c).arrAt 4 cfg1.N (((cfg1.win 4).blk t).view.emb (ix2 q j : S256x3456.Idx))
      = (dat1 V c).flushed 4 t (ix2 q j : S256x3456.Idx) := congrFun (blocks1_4 V c t) (ix2 q j : S256x3456.Idx)
  have hf : (dat1 V c).flushed 4 t = out1_4 (iblk1 V c 0 t) (iblk1 V c 1 t) (iblk1 V c 2 t) (iblk1 V c 3 t) := by
    show (cfg1.win 4).cut (grid1.coords t) ((dat1 V c).after 4 t) = _
    rw [after1_4]
    rfl
  rw [← he, hb, hf, out1_4_eq]

end Blocks

/-! ## The second region's result in closed form, at the ideal values -/

section Closed
variable (V : (c : Dev nD) → (b : Ref sig .tc) → Buf (Elt Ideal) ((c : Thread nD τ).loc b))

/-- THE RESULT after the second region, entry by entry: with X the tokens, W and b the projection's weights and bias column
    and M the small matrix as the region finds them, entry (q, n) is X[q,n] + (Σ_p M[p,q]·(Σ_k W[p,k]·X[k,n] + b[p]))·(1/10368).
    Position n lies in the block of point n / 3456, at n mod 3456 inside it. -/
theorem arr1_closed (c : Dev nD) (X : Vec Ideal S256x10368 .f32) (W : Vec Ideal S128x256 .f32) (b : Vec Ideal S128x1 .f32)
    (M : Vec Ideal S128x256 .f32) (hX : V c main_v0 = X) (hW : V c main_arg1 = W) (hb : V c main_v1 = b) (hM : V c main_v3 = M)
    (q : Fin 256) (n : Fin 10368) :
    ((dat1 V c).arrAt 4 cfg1.N : Vec Ideal S256x10368 .f32) (ix2 q n)
      = X (ix2 q n) + (∑ p : Fin 128, M (ix2 p q) * ((∑ k : Fin 256, W (ix2 p k) * X (ix2 k n)) + b (ix2 p (0 : Fin 1))))
          * ((1 / 10368 : ℝ) : EReal) := by
  obtain ⟨t, j, rfl⟩ : ∃ (t : Fin cfg1.N) (j : Fin 3456), n = ⟨t.val * 3456 + j.val, by
      have hN : t.val < 3 := lt_of_lt_of_eq t.isLt (show cfg1.N = 3 from N_1); have := j.isLt; omega⟩ :=
    ⟨⟨n.val / 3456, by have hn := n.isLt; rw [show cfg1.N = 3 from N_1]; omega⟩, ⟨n.val % 3456, by omega⟩, Fin.ext (by
      show n.val = n.val / 3456 * 3456 + n.val % 3456
      omega)⟩
  subst hX hW hb hM
  rw [arr1 V c t q j, Cert.KernelIdeal.PayIdeal.pay_out]
  simp only [blk1_tok V c t]
  rw [blk1_w V c t, blk1_b V c t, blk1_m V c t]

end Closed

end Cert.KernelIdeal.Fr

end
-- ==== Proof.Law.lean ====
/-
  The exchange law of the non-local block, over real inputs.

  Each of the two results is a real number when every input entry is real: sums and products of reals
  stay inside the reals, where multiplication distributes over addition.  So both sides are coercions
  of real expressions, and over the reals the two expressions agree by exchanging the sum over positions
  with the sum over the 128 projected channels and carrying the constant factor 1/10368 through.

  The second statement cuts a sum over 10368 positions into three consecutive blocks of 3456.
-/
import proofs.«144963_j57260503990845_1_alg».proof.Proof.Spec
import Mathlib.Data.EReal.Basic
import Mathlib.Algebra.BigOperators.Fin
import Mathlib.Algebra.BigOperators.Ring.Finset
import Mathlib.Logic.Equiv.Fin.Basic
import Mathlib.Tactic.Ring

noncomputable section

open scoped BigOperators

namespace Cert.NonLocal

/-- The coercion of the reals into the extended reals carries finite sums to finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## Real twins of the four definitions -/

/-- The projection over the reals. -/
def projR (W : Fin 128 → Fin 256 → ℝ) (b : Fin 128 → ℝ) (X : Fin 256 → Fin 10368 → ℝ)
    (p : Fin 128) (n : Fin 10368) : ℝ :=
  (∑ k : Fin 256, W p k * X k n) + b p

/-- The small matrix over the reals. -/
def gramR (Wj : Fin 128 → Fin 256 → ℝ) (bj : Fin 128 → ℝ) (X : Fin 256 → Fin 10368 → ℝ)
    (p : Fin 128) (q : Fin 256) : ℝ :=
  ∑ n : Fin 10368, projR Wj bj X p n * X q n

/-- The result through the small matrix, over the reals. -/
def outSmallR (Wi : Fin 128 → Fin 256 → ℝ) (bi : Fin 128 → ℝ) (Wj : Fin 128 → Fin 256 → ℝ) (bj : Fin 128 → ℝ)
    (X : Fin 256 → Fin 10368 → ℝ) (q : Fin 256) (n : Fin 10368) : ℝ :=
  X q n + (∑ p : Fin 128, gramR Wj bj X p q * projR Wi bi X p n) * (1 / 10368 : ℝ)

/-- The result through the full score matrix, over the reals. -/
def outScoresR (Wi : Fin 128 → Fin 256 → ℝ) (bi : Fin 128 → ℝ) (Wj : Fin 128 → Fin 256 → ℝ) (bj : Fin 128 → ℝ)
    (X : Fin 256 → Fin 10368 → ℝ) (q : Fin 256) (n : Fin 10368) : ℝ :=
  X q n + ∑ n' : Fin 10368, ((∑ p : Fin 128, projR Wi bi X p n * projR Wj bj X p n') * (1 / 10368 : ℝ)) * X q n'

/-! ## Each definition at real inputs is the coercion of its twin -/

theorem proj_coe (W : Fin 128 → Fin 256 → ℝ) (b : Fin 128 → ℝ) (X : Fin 256 → Fin 10368 → ℝ)
    (p : Fin 128) (n : Fin 10368) :
    proj (fun p k => ((W p k : ℝ) : EReal)) (fun p => ((b p : ℝ) : EReal)) (fun k n => ((X k n : ℝ) : EReal)) p n
      = ((projR W b X p n : ℝ) : EReal) := by
  unfold proj projR
  rw [EReal.coe_add, coe_sum]
  simp only [EReal.coe_mul]

theorem gram_coe (W : Fin 128 → Fin 256 → ℝ) (b : Fin 128 → ℝ) (X : Fin 256 → Fin 10368 → ℝ)
    (p : Fin 128) (q : Fin 256) :
    gram (fun p k => ((W p k : ℝ) : EReal)) (fun p => ((b p : ℝ) : EReal)) (fun k n => ((X k n : ℝ) : EReal)) p q
      = ((gramR W b X p q : ℝ) : EReal) := by
  unfold gram gramR
  rw [coe_sum]
  refine Finset.sum_congr rfl fun n _ => ?_
  rw [proj_coe, EReal.coe_mul]

theorem outSmall_coe (Wi Wj : Fin 128 → Fin 256 → ℝ) (bi bj : Fin 128 → ℝ) (X : Fin 256 → Fin 10368 → ℝ)
    (q : Fin 256) (n : Fin 10368) :
    outSmall (fun p k => ((Wi p k : ℝ) : EReal)) (fun p => ((bi p : ℝ) : EReal)) (fun p k => ((Wj p k : ℝ) : EReal))
        (fun p => ((bj p : ℝ) : EReal)) (fun k n => ((X k n : ℝ) : EReal)) q n
      = ((outSmallR Wi bi Wj bj X q n : ℝ) : EReal) := by
  unfold outSmall outSmallR
  simp only [gram_coe, proj_coe, EReal.coe_add, EReal.coe_mul, coe_sum]

theorem outScores_coe (Wi Wj : Fin 128 → Fin 256 → ℝ) (bi bj : Fin 128 → ℝ) (X : Fin 256 → Fin 10368 → ℝ)
    (q : Fin 256) (n : Fin 10368) :
    outScores (fun p k => ((Wi p k : ℝ) : EReal)) (fun p => ((bi p : ℝ) : EReal)) (fun p k => ((Wj p k : ℝ) : EReal))
        (fun p => ((bj p : ℝ) : EReal)) (fun k n => ((X k n : ℝ) : EReal)) q n
      = ((outScoresR Wi bi Wj bj X q n : ℝ) : EReal) := by
  unfold outScores outScoresR
  simp only [proj_coe, EReal.coe_add, EReal.coe_mul, coe_sum]

/-! ## The identity over the reals, for any finite index types -/

/-- Exchanging the two sums and moving the constant through them: with g the projections paired with
positions (g p m), f the projection at the fixed position (f p) and x the row of tokens (x m). -/
theorem exchange {P N : Type*} [Fintype P] [Fintype N] (g : P → N → ℝ) (f : P → ℝ) (x : N → ℝ) (c : ℝ) :
    (∑ p : P, (∑ m : N, g p m * x m) * f p) * c = ∑ m : N, ((∑ p : P, f p * g p m) * c) * x m := by
  calc (∑ p : P, (∑ m : N, g p m * x m) * f p) * c
      = ∑ p : P, ∑ m : N, (f p * g p m * c) * x m := by
        rw [Finset.sum_mul]
        refine Finset.sum_congr rfl fun p _ => ?_
        rw [Finset.sum_mul, Finset.sum_mul]
        refine Finset.sum_congr rfl fun m _ => ?_
        ring
    _ = ∑ m : N, ∑ p : P, (f p * g p m * c) * x m := Finset.sum_comm
    _ = ∑ m : N, ((∑ p : P, f p * g p m) * c) * x m := by
        refine Finset.sum_congr rfl fun m _ => ?_
        rw [Finset.sum_mul, Finset.sum_mul]

theorem outSmallR_eq_outScoresR (Wi Wj : Fin 128 → Fin 256 → ℝ) (bi bj : Fin 128 → ℝ) (X : Fin 256 → Fin 10368 → ℝ)
    (q : Fin 256) (n : Fin 10368) :
    outSmallR Wi bi Wj bj X q n = outScoresR Wi bi Wj bj X q n := by
  unfold outSmallR outScoresR gramR
  rw [exchange (fun p m => projR Wj bj X p m) (fun p => projR Wi bi X p n) (fun m => X q m) (1 / 10368 : ℝ)]

/-- The result through the small matrix equals the result through the score matrix, at real inputs. -/
theorem outSmall_eq_outScores (Wi Wj : Fin 128 → Fin 256 → ℝ) (bi bj : Fin 128 → ℝ) (X : Fin 256 → Fin 10368 → ℝ) (q : Fin 256) (n : Fin 10368) :
    outSmall (fun p k => ((Wi p k : ℝ) : EReal)) (fun p => ((bi p : ℝ) : EReal)) (fun p k => ((Wj p k : ℝ) : EReal)) (fun p => ((bj p : ℝ) : EReal)) (fun k n => ((X k n : ℝ) : EReal)) q n
  = outScores (fun p k => ((Wi p k : ℝ) : EReal)) (fun p => ((bi p : ℝ) : EReal)) (fun p k => ((Wj p k : ℝ) : EReal)) (fun p => ((bj p : ℝ) : EReal)) (fun k n => ((X k n : ℝ) : EReal)) q n := by
  rw [outSmall_coe, outScores_coe, outSmallR_eq_outScoresR]

/-! ## A sum over all positions as three blocks -/

/-- The positions are the pairs (block, offset): position t·3456 + j. -/
def posEquiv : Fin 3 × Fin 3456 ≃ Fin 10368 where
  toFun tj := pos tj.1 tj.2
  invFun n := (⟨n.val / 3456, by have := n.isLt; omega⟩, ⟨n.val % 3456, Nat.mod_lt _ (by norm_num)⟩)
  left_inv := by
    rintro ⟨t, j⟩
    have ht := t.isLt
    have hj := j.isLt
    refine Prod.ext (Fin.ext ?_) (Fin.ext ?_)
    · show (t.val * 3456 + j.val) / 3456 = t.val
      omega
    · show (t.val * 3456 + j.val) % 3456 = j.val
      omega
  right_inv := by
    intro n
    refine Fin.ext ?_
    show n.val / 3456 * 3456 + n.val % 3456 = n.val
    omega

theorem sum_three_blocks (f : Fin 10368 → EReal) :
    ∑ n : Fin 10368, f n = ((0 + ∑ j : Fin 3456, f (pos 0 j)) + ∑ j : Fin 3456, f (pos 1 j)) + ∑ j : Fin 3456, f (pos 2 j) := by
  rw [← Equiv.sum_comp posEquiv f, Fintype.sum_prod_type, Fin.sum_univ_three, zero_add]
  rfl

end Cert.NonLocal

end
-- ==== Proof.KI.Value.lean ====
/-
  The kernel's result, entry by entry, in the five argument arrays.  The first region leaves in the small matrix the
  three blocks' contributions added in order, which is the sum over all 10368 positions; the second region leaves,
  at channel q and position n, the token plus the small matrix applied to the first projection, scaled; the last
  reshape lists the same entries as the feature volume.
-/
import proofs.«144963_j57260503990845_1_alg».proof.Proof.KI.Reads
import proofs.«144963_j57260503990845_1_alg».proof.Proof.KI.Acc0
import proofs.«144963_j57260503990845_1_alg».proof.Proof.KI.Blocks
import proofs.«144963_j57260503990845_1_alg».proof.Proof.Law

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx Cert.NonLocal

variable (m : (ℓ : Loc nD τ sig) → Buf (Elt Ideal) ℓ) (ρ : Dev nD → PrngReg)

/-- One block's contribution to the small matrix, in the arguments: the projection times the token, summed over the
    block's 3456 positions. -/
theorem blockStep_value (c : Dev nD) (p : Fin 128) (q : Fin 256) (t : Fin cfg0.N) :
    blockStep (V1 m ρ) c p q t
      = ∑ j : Fin 3456, proj (wmat (m ((c : Thread nD τ).loc main_arg3))) (bvec (m ((c : Thread nD τ).loc main_arg4))) (tok (m ((c : Thread nD τ).loc main_arg0))) p
            ⟨t.val * 3456 + j.val, by have hN : t.val < 3 := lt_of_lt_of_eq t.isLt (show cfg0.N = 3 from N_0); have := j.isLt; omega⟩
          * tok (m ((c : Thread nD τ).loc main_arg0)) q
            ⟨t.val * 3456 + j.val, by have hN : t.val < 3 := lt_of_lt_of_eq t.isLt (show cfg0.N = 3 from N_0); have := j.isLt; omega⟩ := by
  rw [blockStep_def]
  refine Finset.sum_congr rfl fun j _ => ?_
  have e1 : ∀ k : Fin 256, blk1 (V1 m ρ) c t (ix2 p k) = wmat (m ((c : Thread nD τ).loc main_arg3)) p k := fun k =>
    (congrFun (blk0_w (V1 m ρ) c t) (ix2 p k)).trans (wjV1 m ρ c p k)
  have e2 : blk2 (V1 m ρ) c t (ix2 p (0 : Fin 1)) = bvec (m ((c : Thread nD τ).loc main_arg4)) p :=
    (congrFun (blk0_b (V1 m ρ) c t) (ix2 p (0 : Fin 1))).trans (bjV1 m ρ c p)
  have e0 : ∀ k : Fin 256, blk0 (V1 m ρ) c t (ix2 k j) = tok (m ((c : Thread nD τ).loc main_arg0)) k
      ⟨t.val * 3456 + j.val, by have hN : t.val < 3 := lt_of_lt_of_eq t.isLt (show cfg0.N = 3 from N_0); have := j.isLt; omega⟩ := fun k =>
    (blk0_tok (V1 m ρ) c t k j).trans (tokV1 m ρ c k _)
  rw [e2, e0 q]
  simp only [e1, e0]
  rfl

/-- The small matrix after the first region: the sum over all positions. -/
theorem gram_value (c : Dev nD) (p : Fin 128) (q : Fin 256) :
    (V2 m ρ c main_v3 : S128x256.Idx → EReal) (ix2 p q)
      = gram (wmat (m ((c : Thread nD τ).loc main_arg3))) (bvec (m ((c : Thread nD τ).loc main_arg4))) (tok (m ((c : Thread nD τ).loc main_arg0))) p q := by
  rw [V2_v3]
  refine (congrFun (arr0 (V1 m ρ) c) (ix2 p q)).trans ?_
  rw [result_window_last (V1 m ρ) c p q, blockStep_value, blockStep_value, blockStep_value]
  unfold gram
  rw [sum_three_blocks]
  rfl

/-- The result array after the second region. -/
theorem out_value (c : Dev nD) (q : Fin 256) (n : Fin 10368) :
    (W3 m ρ c (Proc.devRef .tc main_v4) : S256x10368.Idx → EReal) (ix2 q n)
      = outSmall (wmat (m ((c : Thread nD τ).loc main_arg1))) (bvec (m ((c : Thread nD τ).loc main_arg2))) (wmat (m ((c : Thread nD τ).loc main_arg3))) (bvec (m ((c : Thread nD τ).loc main_arg4))) (tok (m ((c : Thread nD τ).loc main_arg0))) q n := by
  rw [W3_v4]
  refine (arr1_closed (V2 m ρ) c _ _ _ _ rfl rfl rfl rfl q n).trans ?_
  unfold outSmall proj
  refine congrArg₂ (· + ·) (tokV2 m ρ c q n) ?_
  refine congrArg (· * _) ?_
  refine Finset.sum_congr rfl fun p _ => ?_
  refine congrArg₂ (· * ·) (gram_value m ρ c p q) ?_
  exact congrArg₂ (· + ·) (Finset.sum_congr rfl fun k _ => congrArg₂ (· * ·) (wiV2 m ρ c p k) (tokV2 m ρ c k n)) (biV2 m ρ c p)

/-- The kernel's result buffer at the end: the specification's function of the five arguments. -/
theorem kernel_value (c : Dev nD) :
    W4 m ρ c (Proc.devRef .tc main_v5) = result (m ((c : Thread nD τ).loc main_arg0)) (m ((c : Thread nD τ).loc main_arg1)) (m ((c : Thread nD τ).loc main_arg2)) (m ((c : Thread nD τ).loc main_arg3)) (m ((c : Thread nD τ).loc main_arg4)) := by
  funext i
  rw [W4_v5]
  refine (reshape_volume _ _ i).trans ?_
  exact out_value m ρ c (chan i) (posn i)

/-- The kernel's run with its result named. -/
theorem run_value : θ_run defs (onTc (τ := τ) (main (F := Ideal))) ⟨m, fun _ => 0, ρ⟩ (fun r => ∀ c : Dev nD,
      r.2.mem ((c.tc : Thread nD τ).loc main_v5) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (kernel_value m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Fr

end
-- ==== Proof.RefG.lean ====
/-
  The reference program read entry by entry is the result through the full score matrix.

  The reference flattens the feature volume to the 256 × 10368 matrix of tokens, projects it twice (W·X + b, the bias
  spread along the positions), forms the 10368 × 10368 matrix of scores Σ_p fi[p,n]·fj[p,n'] divided by 10368, applies
  it to the transposed tokens, transposes back, restores the volume's shape and adds the volume. Entry (channel q,
  position n) of the result is therefore X[q,n] + Σ_n' ((Σ_p fi[p,n]·fj[p,n'])·(1/10368))·X[q,n']: dividing an extended
  real by the real 10368 is multiplying it by 1/10368, and every other step only renames indices.
-/
import proofs.«144963_j57260503990845_1_alg».proof.Proof.Gen.ReferenceIdeal.Read
import proofs.«144963_j57260503990845_1_alg».proof.Proof.Spec

noncomputable section

open scoped BigOperators

namespace Cert.ReferenceIdeal.RefValue

open Idealize.ShloMosaic Idealize.ShloMosaic.ValueIdx
open Cert.ReferenceIdeal Cert.ReferenceIdeal.Read Cert.NonLocal

/-- The reference's divisor, the float `10368.0` (2¹³ · 1.265625), denotes the real 10368. -/
theorem ofBits_10368 : Ideal.ofBits .f32 0x46220000#32 = ((10368 : ℝ) : EReal) := by
  simp [Ideal.ofBits, Ideal.ieee, -EReal.coe_mul]; norm_num

/-- The flattened volume at (channel k, position n) is the token: position n is grid cell (n / 576, n / 24 mod 24, n mod 24). -/
theorem tokens_apply (x0 : (⟨S1x256x18x24x24, .f32⟩ : BufTy).Contents (Elt Ideal)) (k : Fin 256) (n : Fin 10368) :
    val_main_v0 (F := Ideal) x0 (ix2 k n) = tok x0 k n := by
  rw [val_main_v0_apply]
  unfold tok
  refine congrArg x0 (funext fun a => Fin.ext ?_)
  have hk := k.isLt
  have hn := n.isLt
  match a with
  | ⟨0, _⟩ => rfl
  | ⟨1, _⟩ => show (k.val * 10368 + n.val) / 10368 % 256 = k.val; omega
  | ⟨2, _⟩ => show (k.val * 10368 + n.val) / 576 % 18 = n.val / 576; omega
  | ⟨3, _⟩ => show (k.val * 10368 + n.val) / 24 % 24 = n.val / 24 % 24; omega
  | ⟨4, _⟩ => show (k.val * 10368 + n.val) % 24 = n.val % 24; omega

/-- The first projection (weights `x1`, bias `x2`) at (feature p, position n). -/
theorem proj_i_apply (x0 : (⟨S1x256x18x24x24, .f32⟩ : BufTy).Contents (Elt Ideal)) (x1 : (⟨S128x256, .f32⟩ : BufTy).Contents (Elt Ideal)) (x2 : (⟨S128, .f32⟩ : BufTy).Contents (Elt Ideal)) (p : Fin 128) (n : Fin 10368) :
    val_main_v4 (F := Ideal) x0 x1 x2 (ix2 p n) = proj (wmat x1) (bvec x2) (tok x0) p n := by
  rw [val_main_v4_apply, val_main_v1_apply, val_main_v3_apply, val_main_v2_apply]
  have el : ∀ k : Fin 256, lidx_main_v1 (ix2 p n) k = ix2 p k := fun k =>
    funext fun a => Fin.ext (by match a with | ⟨0, _⟩ => rfl | ⟨1, _⟩ => rfl)
  have er : ∀ k : Fin 256, ridx_main_v1 (ix2 p n) k = ix2 k n := fun k =>
    funext fun a => Fin.ext (by match a with | ⟨0, _⟩ => rfl | ⟨1, _⟩ => rfl)
  have eb : idx_main_v2 (idx_main_v3 (ix2 p n)) = ix1 p :=
    funext fun a => Fin.ext (by match a with | ⟨0, _⟩ => rfl)
  simp only [el, er, eb, tokens_apply]
  rfl

/-- The second projection (weights `x3`, bias `x4`) at (feature p, position n). -/
theorem proj_j_apply (x0 : (⟨S1x256x18x24x24, .f32⟩ : BufTy).Contents (Elt Ideal)) (x3 : (⟨S128x256, .f32⟩ : BufTy).Contents (Elt Ideal)) (x4 : (⟨S128, .f32⟩ : BufTy).Contents (Elt Ideal)) (p : Fin 128) (n : Fin 10368) :
    val_main_v9 (F := Ideal) x0 x3 x4 (ix2 p n) = proj (wmat x3) (bvec x4) (tok x0) p n := by
  rw [val_main_v9_apply, val_main_v6_apply, val_main_v8_apply, val_main_v7_apply]
  have el : ∀ k : Fin 256, lidx_main_v6 (ix2 p n) k = ix2 p k := fun k =>
    funext fun a => Fin.ext (by match a with | ⟨0, _⟩ => rfl | ⟨1, _⟩ => rfl)
  have er : ∀ k : Fin 256, ridx_main_v6 (ix2 p n) k = ix2 k n := fun k =>
    funext fun a => Fin.ext (by match a with | ⟨0, _⟩ => rfl | ⟨1, _⟩ => rfl)
  have eb : idx_main_v7 (idx_main_v8 (ix2 p n)) = ix1 p :=
    funext fun a => Fin.ext (by match a with | ⟨0, _⟩ => rfl)
  simp only [el, er, eb, tokens_apply]
  rfl

/-- The score of positions (n, n'): the two projections contracted over the features, times 1/10368. -/
theorem score_apply (x0 : (⟨S1x256x18x24x24, .f32⟩ : BufTy).Contents (Elt Ideal)) (x1 : (⟨S128x256, .f32⟩ : BufTy).Contents (Elt Ideal)) (x2 : (⟨S128, .f32⟩ : BufTy).Contents (Elt Ideal)) (x3 : (⟨S128x256, .f32⟩ : BufTy).Contents (Elt Ideal)) (x4 : (⟨S128, .f32⟩ : BufTy).Contents (Elt Ideal)) (n n' : Fin 10368) :
    val_main_v13 (F := Ideal) x0 x1 x2 x3 x4 (ix2 n n')
      = (∑ p : Fin 128, proj (wmat x1) (bvec x2) (tok x0) p n * proj (wmat x3) (bvec x4) (tok x0) p n')
          * ((1 / 10368 : ℝ) : EReal) := by
  rw [val_main_v13_apply, val_main_v12_apply, val_main_cst_apply, val_main_v11_apply]
  have el : ∀ p : Fin 128, idx_main_v5 (lidx_main_v11 (ix2 n n') p) = ix2 p n := fun p =>
    funext fun a => Fin.ext (by match a with | ⟨0, _⟩ => rfl | ⟨1, _⟩ => rfl)
  have er : ∀ p : Fin 128, ridx_main_v11 (ix2 n n') p = ix2 p n' := fun p =>
    funext fun a => Fin.ext (by match a with | ⟨0, _⟩ => rfl | ⟨1, _⟩ => rfl)
  simp only [val_main_v5_apply, el, er, proj_i_apply, proj_j_apply]
  rw [Ideal.hostDivf_def, Ideal.ofBits_def, ofBits_10368, Ideal.div_coe (by norm_num : (10368 : ℝ) ≠ 0)]

/-- An entry of the volume is the token at its channel and flattened position. -/
theorem volume_entry (x0 : (⟨S1x256x18x24x24, .f32⟩ : BufTy).Contents (Elt Ideal)) (i : S1x256x18x24x24.Idx) : x0 i = tok x0 (chan i) (posn i) := by
  unfold tok
  refine congrArg x0 (funext fun a => Fin.ext ?_)
  have h0 : (i 0).val < 1 := (i 0).isLt
  have h1 : (i 1).val < 256 := (i 1).isLt
  have h2 : (i 2).val < 18 := (i 2).isLt
  have h3 : (i 3).val < 24 := (i 3).isLt
  have h4 : (i 4).val < 24 := (i 4).isLt
  match a with
  | ⟨0, _⟩ => show (i 0).val = 0; omega
  | ⟨1, _⟩ => rfl
  | ⟨2, _⟩ => show (i 2).val = (((i 2).val * 24 + (i 3).val) * 24 + (i 4).val) / 576; omega
  | ⟨3, _⟩ => show (i 3).val = (((i 2).val * 24 + (i 3).val) * 24 + (i 4).val) / 24 % 24; omega
  | ⟨4, _⟩ => show (i 4).val = (((i 2).val * 24 + (i 3).val) * 24 + (i 4).val) % 24; omega

/-- THE REFERENCE, entry by entry of the volume, is the result through the full score matrix. -/
theorem ref_eq (x0 : (⟨S1x256x18x24x24, .f32⟩ : BufTy).Contents (Elt Ideal)) (x1 : (⟨S128x256, .f32⟩ : BufTy).Contents (Elt Ideal)) (x2 : (⟨S128, .f32⟩ : BufTy).Contents (Elt Ideal)) (x3 : (⟨S128x256, .f32⟩ : BufTy).Contents (Elt Ideal)) (x4 : (⟨S128, .f32⟩ : BufTy).Contents (Elt Ideal)) (i : S1x256x18x24x24.Idx) :
    val_main_v17 (F := Ideal) x0 x1 x2 x3 x4 i
      = outScores (wmat x1) (bvec x2) (wmat x3) (bvec x4) (tok x0) (chan i) (posn i) := by
  rw [val_main_v17_apply, val_main_v16_apply, val_main_v15_apply]
  have e : idx_main_v15 (idx_main_v16 i) = ix2 (posn i) (chan i) := funext fun a => Fin.ext (by
    have h0 : (i 0).val < 1 := (i 0).isLt
    have h1 : (i 1).val < 256 := (i 1).isLt
    have h2 : (i 2).val < 18 := (i 2).isLt
    have h3 : (i 3).val < 24 := (i 3).isLt
    have h4 : (i 4).val < 24 := (i 4).isLt
    match a with
    | ⟨0, _⟩ =>
      show (((((i 0).val * 256 + (i 1).val) * 18 + (i 2).val) * 24 + (i 3).val) * 24 + (i 4).val) % 10368
        = ((i 2).val * 24 + (i 3).val) * 24 + (i 4).val
      omega
    | ⟨1, _⟩ =>
      show (((((i 0).val * 256 + (i 1).val) * 18 + (i 2).val) * 24 + (i 3).val) * 24 + (i 4).val) / 10368 = (i 1).val
      omega)
  rw [e, val_main_v14_apply]
  have el : ∀ k : Fin 10368, lidx_main_v14 (ix2 (posn i) (chan i)) k = ix2 (posn i) k := fun k =>
    funext fun a => Fin.ext (by match a with | ⟨0, _⟩ => rfl | ⟨1, _⟩ => rfl)
  have er : ∀ k : Fin 10368, idx_main_v10 (ridx_main_v14 (ix2 (posn i) (chan i)) k) = ix2 (chan i) k := fun k =>
    funext fun a => Fin.ext (by match a with | ⟨0, _⟩ => rfl | ⟨1, _⟩ => rfl)
  simp only [el, val_main_v10_apply, er, score_apply, tokens_apply]
  rw [volume_entry x0 i]
  rfl

end Cert.ReferenceIdeal.RefValue

end
-- ==== Proof.Finite.lean ====
/-
  Finiteness of the inputs, read back from the precondition.

  The predicate is the conjunction, over the five argument arrays, of "every entry x has |x| < +∞".  On the
  extended reals |x| is max x (-x), and the pattern 0x7F800000 denotes +∞; an extended real whose absolute
  value lies strictly below +∞ is neither +∞ nor -∞, so it is a real number.  A conjunction of bits that is 1
  has every conjunct 1, and an "all" that is 1 has a 1 at every entry; so the predicate being 1 makes every
  entry of every array a real number.
-/
import proofs.«144963_j57260503990845_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.NonLocal.Finite

open Idealize.ShloMosaic Cert.Pre_finite_inputs

/-- The scalar shape has exactly one index. -/
instance : Subsingleton S_.Idx := ⟨fun a b => funext fun d => d.elim0⟩

/-- The pattern 0x7F800000 denotes +∞. -/
theorem top_bits : Ideal.ofBits .f32 0x7F800000#32 = (⊤ : EReal) := by
  simp [Ideal.ofBits, Ideal.ieee]

/-- An extended real whose absolute value is strictly below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [top_bits] at h
  induction x using EReal.rec with
  | bot => simp [Ideal.cmp] at h
  | top => simp [Ideal.cmp] at h
  | coe r => exact ⟨r, rfl⟩

/-- One array: if "all entries have |x| < +∞" came out 1, the array is the coercion of an array of reals. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ValueIdx.ix0 = 1#1) :
    ∃ r : s.Idx → ℝ, x = fun i => ((r i : ℝ) : EReal) := by
  have key : ∀ i : s.Idx, ∃ r : ℝ, x i = (r : EReal) := fun i =>
    real_of_abs_lt (x i) (Host.reduce_andi_all _ _ hr hu ValueIdx.ix0 e i)
  exact ⟨fun i => (key i).choose, funext fun i => (key i).choose_spec⟩

/-- The predicate being 1 makes each of the five argument arrays the coercion of an array of reals. -/
theorem inputs_real [Facts] (x0 : FVec Ideal S1x256x18x24x24 .f32) (x1 : FVec Ideal S128x256 .f32) (x2 : FVec Ideal S128 .f32)
    (x3 : FVec Ideal S128x256 .f32) (x4 : FVec Ideal S128 .f32)
    (h : Cert.Pre_finite_inputs.fn (F := Ideal) x0 x1 x2 x3 x4 = (fun _ => 1#1)) :
    (∃ r0 : S1x256x18x24x24.Idx → ℝ, x0 = fun i => ((r0 i : ℝ) : EReal))
    ∧ (∃ r1 : S128x256.Idx → ℝ, x1 = fun i => ((r1 i : ℝ) : EReal))
    ∧ (∃ r2 : S128.Idx → ℝ, x2 = fun i => ((r2 i : ℝ) : EReal))
    ∧ (∃ r3 : S128x256.Idx → ℝ, x3 = fun i => ((r3 i : ℝ) : EReal))
    ∧ (∃ r4 : S128.Idx → ℝ, x4 = fun i => ((r4 i : ℝ) : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all x0 _ _ _ e0, real_of_all x1 _ _ _ e1, real_of_all x2 _ _ _ e2, real_of_all x3 _ _ _ e3,
    real_of_all x4 _ _ _ e4⟩

end Cert.NonLocal.Finite

end
-- ==== Proof.Algebraic.lean ====
/-
  The two programs' results are one function of the arguments.

  The kernel's result, entry by entry of the feature volume, is the result through the small matrix; the reference's is
  the result through the full matrix of scores.  On inputs whose every entry is a real number the two agree: both are
  sums and products of reals, and over the reals the sum over positions and the sum over the projected channels can be
  exchanged and the constant 1/10368 carried through.  The precondition says exactly that every entry is real.
-/
import proofs.«144963_j57260503990845_1_alg».proof.Defs
import proofs.«144963_j57260503990845_1_alg».proof.Proof.Gen.KernelIdeal
import proofs.«144963_j57260503990845_1_alg».proof.Proof.Gen.ReferenceIdeal
import proofs.«144963_j57260503990845_1_alg».proof.Proof.Gen.Pre_finite_inputs
import proofs.«144963_j57260503990845_1_alg».proof.Proof.Gen.ReferenceIdeal.Run
import proofs.«144963_j57260503990845_1_alg».proof.Proof.Gen.ReferenceIdeal.Read
import proofs.«144963_j57260503990845_1_alg».proof.Proof.RefG
import proofs.«144963_j57260503990845_1_alg».proof.Proof.Law
import proofs.«144963_j57260503990845_1_alg».proof.Proof.Finite
import proofs.«144963_j57260503990845_1_alg».proof.Proof.Spec

noncomputable section

namespace Cert.Proof

open Idealize.ShloMosaic Idealize.ShloMosaic.TcCoe Idealize.SL.Sem Idealize.ShloMosaic.ValueIdx
open Cert.NonLocal

/-- On arrays of reals the result through the score matrix is the result through the small matrix. -/
theorem scores_eq_small_of_real (x0 : SVol.Idx → EReal) (x1 : (⟨2, ![128, 256]⟩ : Shape).Idx → EReal)
    (x2 : (⟨1, ![128]⟩ : Shape).Idx → EReal) (x3 : (⟨2, ![128, 256]⟩ : Shape).Idx → EReal) (x4 : (⟨1, ![128]⟩ : Shape).Idx → EReal)
    (h0 : ∃ r0 : SVol.Idx → ℝ, x0 = fun i => ((r0 i : ℝ) : EReal))
    (h1 : ∃ r1 : (⟨2, ![128, 256]⟩ : Shape).Idx → ℝ, x1 = fun i => ((r1 i : ℝ) : EReal))
    (h2 : ∃ r2 : (⟨1, ![128]⟩ : Shape).Idx → ℝ, x2 = fun i => ((r2 i : ℝ) : EReal))
    (h3 : ∃ r3 : (⟨2, ![128, 256]⟩ : Shape).Idx → ℝ, x3 = fun i => ((r3 i : ℝ) : EReal))
    (h4 : ∃ r4 : (⟨1, ![128]⟩ : Shape).Idx → ℝ, x4 = fun i => ((r4 i : ℝ) : EReal))
    (q : Fin 256) (n : Fin 10368) :
    outScores (wmat x1) (bvec x2) (wmat x3) (bvec x4) (tok x0) q n
      = outSmall (wmat x1) (bvec x2) (wmat x3) (bvec x4) (tok x0) q n := by
  obtain ⟨r0, rfl⟩ := h0
  obtain ⟨r1, rfl⟩ := h1
  obtain ⟨r2, rfl⟩ := h2
  obtain ⟨r3, rfl⟩ := h3
  obtain ⟨r4, rfl⟩ := h4
  exact (outSmall_eq_outScores (fun p k => r1 (ix2 p k)) (fun p k => r3 (ix2 p k)) (fun p => r2 (ix1 p)) (fun p => r4 (ix1 p))
    (fun k n => r0 (cell k n)) q n).symm

/-- From the kernel's run with its result named: both programs run, and end with equal results. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v5)
            = Cert.NonLocal.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, hrun m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))).trans ?_
  rw [(hagree c).1, (hagree c).2.1, (hagree c).2.2.1, (hagree c).2.2.2.1, (hagree c).2.2.2.2]
  obtain ⟨h0, h1, h2, h3, h4⟩ := Cert.NonLocal.Finite.inputs_real _ _ _ _ _ (hpre c)
  funext i
  rw [Cert.ReferenceIdeal.RefValue.ref_eq]
  exact scores_eq_small_of_real _ _ _ _ _ h0 h1 h2 h3 h4 (chan i) (posn i)

end Cert.Proof

end
-- ==== Proof.lean ====
/-
  The certificate of the non-local block: the kernel accumulates the small matrix M = fj·Xᵀ block by block and then
  forms X + (Mᵀ·fi)·(1/10368); the reference forms the full matrix of scores (fiᵀ·fj)/10368 and then X + X·scoresᵀ.
  Both programs run to the end without a fault and leave their arguments unchanged; the kernel's idealization names
  its one folded reciprocal; and over the extended reals, on finite inputs, the two results are one function of the
  arguments — the two finite sums exchanged and the constant factor moved through them.
-/
import proofs.«144963_j57260503990845_1_alg».proof.Defs
import proofs.«144963_j57260503990845_1_alg».proof.Proof.Gen.Kernel
import proofs.«144963_j57260503990845_1_alg».proof.Proof.Gen.KernelIdeal
import proofs.«144963_j57260503990845_1_alg».proof.Proof.Gen.ReferenceIdeal
import proofs.«144963_j57260503990845_1_alg».proof.Proof.Gen.Pre_finite_inputs
import proofs.«144963_j57260503990845_1_alg».proof.Proof.Gen.ReferenceIdeal.Run
import proofs.«144963_j57260503990845_1_alg».proof.Proof.Gen.ReferenceIdeal.Read
import proofs.«144963_j57260503990845_1_alg».proof.Proof.K.Main
import proofs.«144963_j57260503990845_1_alg».proof.Proof.KI.Main
import proofs.«144963_j57260503990845_1_alg».proof.Proof.KI.Value
import proofs.«144963_j57260503990845_1_alg».proof.Proof.Algebraic
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel (hKernel := Cert.Kernel.Gen.facts) (hPre_finite_inputs := Cert.Pre_finite_inputs.Gen.facts) :=
  fun m ρ _ => Cert.Kernel.Fr.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the idealization: the folded reciprocal is named, and the name denotes 1/10368. -/
theorem preserves : Cert.preserves_Kernel_KernelIdeal :=
  IdealRules.named_const.statement Cert.KernelIdeal.κ "inv_10368" .f32 0x38CA4588#32 ((1 / 10368 : ℝ) : EReal) rfl

/-- Over the extended reals, on finite inputs, the two programs end with one result: the kernel's run names its
    result as the specification's function of the arguments, and the reference's result is that function. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  algebraic_of_run fun m ρ => Cert.KernelIdeal.Fr.run_value m ρ

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
